-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x64, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x40, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x40, .f32⟩
  | 119 => ⟨S1700000x1, .f32⟩
  | 120 => ⟨S1700000x40, .f32⟩
  | 121 => ⟨S1700000x40, .f32⟩
  | 122 => ⟨S_, .f32⟩
  | 123 => ⟨S100000x40, .f32⟩
  | 124 => ⟨S1700000x1, .i32⟩
  | 125 => ⟨S100000x40, .f32⟩
  | 126 => ⟨S1x40, .f32⟩
  | 127 => ⟨S100000x40, .f32⟩
  | _ => ⟨S100000x128, .f32⟩

abbrev hbmTy0_1 (i : Nat) : BufTy := match i % 128 with
  | 0 => ⟨S100000x40, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x40, .f32⟩
  | 8 => ⟨S100000x40, .f32⟩
  | 9 => ⟨S100000x40, .f32⟩
  | 10 => ⟨S_, .f32⟩
  | 11 => ⟨S100000, .f32⟩
  | 12 => ⟨S100000x1, .f32⟩
  | 13 => ⟨S100000x1, .f32⟩
  | 14 => ⟨S100000x40, .f32⟩
  | 15 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.ReferenceResult.lean ====
/-
  The reference's run, read in fourteen stretches.

  The reference's @main is a straight line of 138 host operations.  Every weakly fair execution terminates with each
  buffer at the fold of the operations over the launch contents.  The fold is read here stretch by stretch — per layer:
  the lists and degrees, the selection of the inverse square roots, the edge weights, the layer itself, its closing
  function, the last one in five steps — each stretch's results as the stage functions of the six arguments, so that the result buffer ends at the
  last stage function of the arguments and the arguments are unchanged.
-/
import proofs.«104228_j82592221102830_1_alg».proof.Proof.ReferenceRead
import Idealize.ShloMosaic.Lib.StableHlo.Run

set_option maxRecDepth 65536

noncomputable section

namespace Cert.ReferenceIdeal.Result

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

/-- The fold over two stretches run one after the other is the fold over the second from the first's result. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {F : FTy → Type} [FloatOps F]

/-- Stretch 1: the lists with the self loops, the degrees compared with zero, their inverse square roots (18 operations). -/
abbrev stretch1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Stretch 2: the selection: the inverse square root where the degree is positive, zero elsewhere (3 operations). -/
abbrev stretch2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Stretch 3: the first layer's edge weights (19 operations). -/
abbrev stretch3 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Stretch 4: the first layer: product, gather, weights, scatter-add, bias (20 operations). -/
abbrev stretch4 : List (HloOp τ sig (Elt F)) :=
  [ binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

/-- Stretch 5: the rectifier (3 operations). -/
abbrev stretch5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- Stretch 6: the lists and the degrees again, for the second layer (18 operations). -/
abbrev stretch6 : List (HloOp τ sig (Elt F)) :=
  [ unary main_arg1 main_v48 ((extractStridedSlice S1x1600000 ![0, 0] · slices_S2x1600000_S1x1600000_0_0) : (⟨S2x1600000, .i32⟩ : BufTy).Contents (Elt F) → (⟨S1x1600000, .i32⟩ : BufTy).Contents (Elt F)),
    reshape main_v48 main_v49 rfl shapeCasts_S1x1600000_S1600000,
    unary main_arg1 main_v50 ((extractStridedSlice S1x1600000 ![1, 0] · slices_S2x1600000_S1x1600000_1_0) : (⟨S2x1600000, .i32⟩ : BufTy).Contents (Elt F) → (⟨S1x1600000, .i32⟩ : BufTy).Contents (Elt F)),
    reshape main_v50 main_v51 rfl shapeCasts_S1x1600000_S1600000,
    nullary main_v52 (iotaInDim S100000 32 0),
    binary main_v49 main_v52 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v51 main_v52 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32) ]

/-- Stretch 7: the selection again (3 operations). -/
abbrev stretch7 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select ]

/-- Stretch 8: the second layer's edge weights (19 operations). -/
abbrev stretch8 : List (HloOp τ sig (Elt F)) :=
  [ nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v53 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v53 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v53 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)) ]

/-- Stretch 9: the second layer: product, gather, weights, scatter-add, bias (20 operations). -/
abbrev stretch9 : List (HloOp τ sig (Elt F)) :=
  [ binary main_v47 main_arg4 main_v78 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v53 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v53 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v53 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x40 ![0, 1] bcast_S1700000x1_S1700000x40_0_1 : (⟨S1700000x1, .f32⟩ : BufTy).Contents (Elt F) → (⟨S1700000x40, .f32⟩ : BufTy).Contents (Elt F)),
    binary main_v85 main_v87 main_v88 (mulf : (⟨S1700000x40, .f32⟩ : BufTy).Contents (Elt F) → (⟨S1700000x40, .f32⟩ : BufTy).Contents (Elt F) → (⟨S1700000x40, .f32⟩ : BufTy).Contents (Elt F)),
    nullary main_cst_19 (constant S_ .f32 0x00000000#32),
    unary main_cst_19 main_v89 (broadcastInDim S100000x40 ![] bcast_S_S100000x40 : (⟨S_, .f32⟩ : BufTy).Contents (Elt F) → (⟨S100000x40, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg5 main_v92 (broadcastInDim S1x40 ![1] bcast_S40_S1x40_1 : (⟨S40, .f32⟩ : BufTy).Contents (Elt F) → (⟨S1x40, .f32⟩ : BufTy).Contents (Elt F)),
    unary main_v92 main_v93 (broadcastInDim S100000x40 ![0, 1] bcast_S1x40_S100000x40_0_1 : (⟨S1x40, .f32⟩ : BufTy).Contents (Elt F) → (⟨S100000x40, .f32⟩ : BufTy).Contents (Elt F)),
    binary main_v91 main_v93 main_v94 (addf : (⟨S100000x40, .f32⟩ : BufTy).Contents (Elt F) → (⟨S100000x40, .f32⟩ : BufTy).Contents (Elt F) → (⟨S100000x40, .f32⟩ : BufTy).Contents (Elt F)) ]

/-- Stretch 10: the log-softmax: each row's maximum (2 operations). -/
abbrev stretch10 : List (HloOp τ sig (Elt F)) :=
  [ TRef.nullary (TRef.of (T := ⟨S_, .f32⟩) main_call3_cst) (constant S_ .f32 0xFF800000#32),
    TRef.binary (TRef.of (T := ⟨S100000x40, .f32⟩) main_v94) (TRef.of (T := ⟨S_, .f32⟩) main_call3_cst) (TRef.of (T := ⟨S100000, .f32⟩) main_call3_v0) (fun x v => Host.reduce FloatOps.maximumf x v reducesTo_S100000x40_S100000_d1 h_S_) ]

/-- Stretch 11: the maximum once more against minus infinity (3 operations). -/
abbrev stretch11 : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Stretch 12: the array shifted by the row maxima (3 operations). -/
abbrev stretch12 : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v94) (TRef.of (T := ⟨S100000x40, .f32⟩) main_call3_v4) (TRef.of (T := ⟨S100000x40, .f32⟩) main_call3_v5) subf ]

/-- Stretch 13: the sums of the exponentials of the shifted rows (3 operations). -/
abbrev stretch13 : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]

/-- Stretch 14: the shifted array minus the logarithms of the sums (4 operations). -/
abbrev stretch14 : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v95) subf ]

set_option maxHeartbeats 4000000 in
/-- The operations are the fourteen stretches in order. -/
theorem ops_eq : (ops : List (HloOp τ sig (Elt F))) = stretch1 ++ (stretch2 ++ (stretch3 ++ (stretch4 ++ (stretch5 ++ (stretch6 ++ (stretch7 ++ (stretch8 ++ (stretch9 ++ (stretch10 ++ (stretch11 ++ (stretch12 ++ (stretch13 ++ (stretch14))))))))))))) := rfl

variable (m : (ℓ : Loc nD τ sig) → Buf (Elt Ideal) ℓ) (d : Dev nD)

/-- The contents after each stretch. -/
abbrev U0 : Valuation τ sig (Elt Ideal) := launchContents m d
abbrev U1 : Valuation τ sig (Elt Ideal) := after stretch1 (U0 m d)
abbrev U2 : Valuation τ sig (Elt Ideal) := after stretch2 (U1 m d)
abbrev U3 : Valuation τ sig (Elt Ideal) := after stretch3 (U2 m d)
abbrev U4 : Valuation τ sig (Elt Ideal) := after stretch4 (U3 m d)
abbrev U5 : Valuation τ sig (Elt Ideal) := after stretch5 (U4 m d)
abbrev U6 : Valuation τ sig (Elt Ideal) := after stretch6 (U5 m d)
abbrev U7 : Valuation τ sig (Elt Ideal) := after stretch7 (U6 m d)
abbrev U8 : Valuation τ sig (Elt Ideal) := after stretch8 (U7 m d)
abbrev U9 : Valuation τ sig (Elt Ideal) := after stretch9 (U8 m d)
abbrev U10 : Valuation τ sig (Elt Ideal) := after stretch10 (U9 m d)
abbrev U11 : Valuation τ sig (Elt Ideal) := after stretch11 (U10 m d)
abbrev U12 : Valuation τ sig (Elt Ideal) := after stretch12 (U11 m d)
abbrev U13 : Valuation τ sig (Elt Ideal) := after stretch13 (U12 m d)
abbrev U14 : Valuation τ sig (Elt Ideal) := after stretch14 (U13 m d)

theorem after_ops : after (ops : List (HloOp τ sig (Elt Ideal))) (launchContents m d) = U14 m d := by
  rw [ops_eq, after_append, after_append, after_append, after_append, after_append, after_append, after_append, after_append, after_append, after_append, after_append, after_append, after_append]

/-! ## Stretch 1 -/

theorem u1_arg0 : U1 m d (Proc.devRef .tc main_arg0) = (m ((d.tc : Thread nD τ).loc main_arg0)) := by
  show StableHlo.after stretch1 (U0 m d) (Proc.devRef .tc main_arg0) = _
  after_results_simp <;> rfl

theorem u1_arg1 : U1 m d (Proc.devRef .tc main_arg1) = (m ((d.tc : Thread nD τ).loc main_arg1)) := by
  show StableHlo.after stretch1 (U0 m d) (Proc.devRef .tc main_arg1) = _
  after_results_simp <;> rfl

theorem u1_arg2 : U1 m d (Proc.devRef .tc main_arg2) = (m ((d.tc : Thread nD τ).loc main_arg2)) := by
  show StableHlo.after stretch1 (U0 m d) (Proc.devRef .tc main_arg2) = _
  after_results_simp <;> rfl

theorem u1_arg3 : U1 m d (Proc.devRef .tc main_arg3) = (m ((d.tc : Thread nD τ).loc main_arg3)) := by
  show StableHlo.after stretch1 (U0 m d) (Proc.devRef .tc main_arg3) = _
  after_results_simp <;> rfl

theorem u1_arg4 : U1 m d (Proc.devRef .tc main_arg4) = (m ((d.tc : Thread nD τ).loc main_arg4)) := by
  show StableHlo.after stretch1 (U0 m d) (Proc.devRef .tc main_arg4) = _
  after_results_simp <;> rfl

theorem u1_arg5 : U1 m d (Proc.devRef .tc main_arg5) = (m ((d.tc : Thread nD τ).loc main_arg5)) := by
  show StableHlo.after stretch1 (U0 m d) (Proc.devRef .tc main_arg5) = _
  after_results_simp <;> rfl

theorem u1_v5 : U1 m d (Proc.devRef .tc main_v5) = val_main_v5 (F := Ideal) (m ((d.tc : Thread nD τ).loc main_arg1)) := by
  show StableHlo.after stretch1 (U0 m d) (Proc.devRef .tc main_v5) = _
  after_results_simp <;> rfl

theorem u1_v6 : U1 m d (Proc.devRef .tc main_v6) = val_main_v6 (F := Ideal) (m ((d.tc : Thread nD τ).loc main_arg1)) := by
  show StableHlo.after stretch1 (U0 m d) (Proc.devRef .tc main_v6) = _
  after_results_simp <;> rfl

theorem u1_v12 : U1 m d (Proc.devRef .tc main_v12) = val_main_v12 (F := Ideal) (m ((d.tc : Thread nD τ).loc main_arg1)) := by
  show StableHlo.after stretch1 (U0 m d) (Proc.devRef .tc main_v12) = _
  after_results_simp <;> rfl

theorem u1_v13 : U1 m d (Proc.devRef .tc main_v13) = val_main_v13 (F := Ideal) (m ((d.tc : Thread nD τ).loc main_arg1)) := by
  show StableHlo.after stretch1 (U0 m d) (Proc.devRef .tc main_v13) = _
  after_results_simp <;> rfl

theorem u1_cst_2 : U1 m d (Proc.devRef .tc main_cst_2) = val_main_cst_2 (F := Ideal) := by
  show StableHlo.after stretch1 (U0 m d) (Proc.devRef .tc main_cst_2) = _
  after_results_simp <;> rfl

/-! ## Stretch 2 -/

/-- The first selection, from any contents. -/
theorem selection1_at (W : Valuation τ sig (Elt Ideal)) :
    StableHlo.after stretch2 W (Proc.devRef .tc main_v14) = select (W (Proc.devRef .tc main_v12)) (W (Proc.devRef .tc main_v13)) (broadcastInDim S100000 ![] bcast_S_S100000 (id (W (Proc.devRef .tc main_cst_2)))) := by
  after_results_simp
  rfl

theorem u2_v14 : U2 m d (Proc.devRef .tc main_v14) = val_main_v14 (F := Ideal) (m ((d.tc : Thread nD τ).loc main_arg1)) := by
  have e0 := u1_v12 m d
  have e1 := u1_v13 m d
  have e2 := u1_cst_2 m d
  refine (selection1_at (U1 m d)).trans ?_
  rw [e0, e1, e2]
  rfl

theorem u2_arg0 : U2 m d (Proc.devRef .tc main_arg0) = (m ((d.tc : Thread nD τ).loc main_arg0)) := by
  have e0 := u1_arg0 m d
  show StableHlo.after stretch2 (U1 m d) (Proc.devRef .tc main_arg0) = _
  generalize U1 m d = W at e0 ⊢
  after_results_simp
  exact e0

theorem u2_arg1 : U2 m d (Proc.devRef .tc main_arg1) = (m ((d.tc : Thread nD τ).loc main_arg1)) := by
  have e0 := u1_arg1 m d
  show StableHlo.after stretch2 (U1 m d) (Proc.devRef .tc main_arg1) = _
  generalize U1 m d = W at e0 ⊢
  after_results_simp
  exact e0

theorem u2_arg2 : U2 m d (Proc.devRef .tc main_arg2) = (m ((d.tc : Thread nD τ).loc main_arg2)) := by
  have e0 := u1_arg2 m d
  show StableHlo.after stretch2 (U1 m d) (Proc.devRef .tc main_arg2) = _
  generalize U1 m d = W at e0 ⊢
  after_results_simp
  exact e0

theorem u2_arg3 : U2 m d (Proc.devRef .tc main_arg3) = (m ((d.tc : Thread nD τ).loc main_arg3)) := by
  have e0 := u1_arg3 m d
  show StableHlo.after stretch2 (U1 m d) (Proc.devRef .tc main_arg3) = _
  generalize U1 m d = W at e0 ⊢
  after_results_simp
  exact e0

theorem u2_arg4 : U2 m d (Proc.devRef .tc main_arg4) = (m ((d.tc : Thread nD τ).loc main_arg4)) := by
  have e0 := u1_arg4 m d
  show StableHlo.after stretch2 (U1 m d) (Proc.devRef .tc main_arg4) = _
  generalize U1 m d = W at e0 ⊢
  after_results_simp
  exact e0

theorem u2_arg5 : U2 m d (Proc.devRef .tc main_arg5) = (m ((d.tc : Thread nD τ).loc main_arg5)) := by
  have e0 := u1_arg5 m d
  show StableHlo.after stretch2 (U1 m d) (Proc.devRef .tc main_arg5) = _
  generalize U1 m d = W at e0 ⊢
  after_results_simp
  exact e0

theorem u2_v5 : U2 m d (Proc.devRef .tc main_v5) = val_main_v5 (F := Ideal) (m ((d.tc : Thread nD τ).loc main_arg1)) := by
  have e0 := u1_v5 m d
  show StableHlo.after stretch2 (U1 m d) (Proc.devRef .tc main_v5) = _
  generalize U1 m d = W at e0 ⊢
  after_results_simp
  exact e0

theorem u2_v6 : U2 m d (Proc.devRef .tc main_v6) = val_main_v6 (F := Ideal) (m ((d.tc : Thread nD τ).loc main_arg1)) := by
  have e0 := u1_v6 m d
  show StableHlo.after stretch2 (U1 m d) (Proc.devRef .tc main_v6) = _
  generalize U1 m d = W at e0 ⊢
  after_results_simp
  exact e0

/-! ## Stretch 3 -/

theorem u3_v29 : U3 m d (Proc.devRef .tc main_v29) = val_main_v29 (F := Ideal) (m ((d.tc : Thread nD τ).loc main_arg1)) := by
  have e0 := u2_v14 m d
  have e1 := u2_v5 m d
  have e2 := u2_v6 m d
  show StableHlo.after stretch3 (U2 m d) (Proc.devRef .tc main_v29) = _
  generalize U2 m d = W at e0 e1 e2 ⊢
  after_results_simp
  rw [e0, e1, e2]
  rfl

theorem u3_arg0 : U3 m d (Proc.devRef .tc main_arg0) = (m ((d.tc : Thread nD τ).loc main_arg0)) := by
  have e0 := u2_arg0 m d
  show StableHlo.after stretch3 (U2 m d) (Proc.devRef .tc main_arg0) = _
  generalize U2 m d = W at e0 ⊢
  after_results_simp
  exact e0

theorem u3_arg1 : U3 m d (Proc.devRef .tc main_arg1) = (m ((d.tc : Thread nD τ).loc main_arg1)) := by
  have e0 := u2_arg1 m d
  show StableHlo.after stretch3 (U2 m d) (Proc.devRef .tc main_arg1) = _
  generalize U2 m d = W at e0 ⊢
  after_results_simp
  exact e0

theorem u3_arg2 : U3 m d (Proc.devRef .tc main_arg2) = (m ((d.tc : Thread nD τ).loc main_arg2)) := by
  have e0 := u2_arg2 m d
  show StableHlo.after stretch3 (U2 m d) (Proc.devRef .tc main_arg2) = _
  generalize U2 m d = W at e0 ⊢
  after_results_simp
  exact e0

theorem u3_arg3 : U3 m d (Proc.devRef .tc main_arg3) = (m ((d.tc : Thread nD τ).loc main_arg3)) := by
  have e0 := u2_arg3 m d
  show StableHlo.after stretch3 (U2 m d) (Proc.devRef .tc main_arg3) = _
  generalize U2 m d = W at e0 ⊢
  after_results_simp
  exact e0

theorem u3_arg4 : U3 m d (Proc.devRef .tc main_arg4) = (m ((d.tc : Thread nD τ).loc main_arg4)) := by
  have e0 := u2_arg4 m d
  show StableHlo.after stretch3 (U2 m d) (Proc.devRef .tc main_arg4) = _
  generalize U2 m d = W at e0 ⊢
  after_results_simp
  exact e0

theorem u3_arg5 : U3 m d (Proc.devRef .tc main_arg5) = (m ((d.tc : Thread nD τ).loc main_arg5)) := by
  have e0 := u2_arg5 m d
  show StableHlo.after stretch3 (U2 m d) (Proc.devRef .tc main_arg5) = _
  generalize U2 m d = W at e0 ⊢
  after_results_simp
  exact e0

theorem u3_v5 : U3 m d (Proc.devRef .tc main_v5) = val_main_v5 (F := Ideal) (m ((d.tc : Thread nD τ).loc main_arg1)) := by
  have e0 := u2_v5 m d
  show StableHlo.after stretch3 (U2 m d) (Proc.devRef .tc main_v5) = _
  generalize U2 m d = W at e0 ⊢
  after_results_simp
  exact e0

theorem u3_v6 : U3 m d (Proc.devRef .tc main_v6) = val_main_v6 (F := Ideal) (m ((d.tc : Thread nD τ).loc main_arg1)) := by
  have e0 := u2_v6 m d
  show StableHlo.after stretch3 (U2 m d) (Proc.devRef .tc main_v6) = _
  generalize U2 m d = W at e0 ⊢
  after_results_simp
  exact e0

/-! ## Stretch 4 -/

theorem u4_v46 : U4 m d (Proc.devRef .tc main_v46) = val_main_v46 (F := Ideal) (m ((d.tc : Thread nD τ).loc main_arg0)) (m ((d.tc : Thread nD τ).loc main_arg1)) (m ((d.tc : Thread nD τ).loc main_arg2)) (m ((d.tc : Thread nD τ).loc main_arg3)) := by
  have e0 := u3_arg0 m d
  have e1 := u3_arg2 m d
  have e2 := u3_arg3 m d
  have e3 := u3_v5 m d
  have e4 := u3_v6 m d
  have e5 := u3_v29 m d
  show StableHlo.after stretch4 (U3 m d) (Proc.devRef .tc main_v46) = _
  generalize U3 m d = W at e0 e1 e2 e3 e4 e5 ⊢
  after_results_simp
  rw [e0, e1, e2, e3, e4, e5]
  rfl

theorem u4_arg1 : U4 m d (Proc.devRef .tc main_arg1) = (m ((d.tc : Thread nD τ).loc main_arg1)) := by
  have e0 := u3_arg1 m d
  show StableHlo.after stretch4 (U3 m d) (Proc.devRef .tc main_arg1) = _
  generalize U3 m d = W at e0 ⊢
  after_results_simp
  exact e0

theorem u4_arg4 : U4 m d (Proc.devRef .tc main_arg4) = (m ((d.tc : Thread nD τ).loc main_arg4)) := by
  have e0 := u3_arg4 m d
  show StableHlo.after stretch4 (U3 m d) (Proc.devRef .tc main_arg4) = _
  generalize U3 m d = W at e0 ⊢
  after_results_simp
  exact e0

theorem u4_arg5 : U4 m d (Proc.devRef .tc main_arg5) = (m ((d.tc : Thread nD τ).loc main_arg5)) := by
  have e0 := u3_arg5 m d
  show StableHlo.after stretch4 (U3 m d) (Proc.devRef .tc main_arg5) = _
  generalize U3 m d = W at e0 ⊢
  after_results_simp
  exact e0

/-! ## Stretch 5 -/

/-- The rectifier, from any contents: the maximum with zero. -/
theorem rectifier_at (W : Valuation τ sig (Elt Ideal)) :
    StableHlo.after stretch5 W (Proc.devRef .tc main_v47) = maximumf (W (Proc.devRef .tc main_v46)) (broadcastInDim S100000x64 ![] bcast_S_S100000x64 (constant (F := Ideal) S_ .f32 0x00000000#32)) := by
  after_results_simp
  rfl

/-- The hidden features. -/
theorem u5_v47 : U5 m d (Proc.devRef .tc main_v47) = val_main_v47 (F := Ideal) (m ((d.tc : Thread nD τ).loc main_arg0)) (m ((d.tc : Thread nD τ).loc main_arg1)) (m ((d.tc : Thread nD τ).loc main_arg2)) (m ((d.tc : Thread nD τ).loc main_arg3)) := by
  have e0 := u4_v46 m d
  refine (rectifier_at (U4 m d)).trans ?_
  rw [e0]
  rfl

theorem u5_arg1 : U5 m d (Proc.devRef .tc main_arg1) = (m ((d.tc : Thread nD τ).loc main_arg1)) := by
  have e0 := u4_arg1 m d
  show StableHlo.after stretch5 (U4 m d) (Proc.devRef .tc main_arg1) = _
  generalize U4 m d = W at e0 ⊢
  after_results_simp
  exact e0

theorem u5_arg4 : U5 m d (Proc.devRef .tc main_arg4) = (m ((d.tc : Thread nD τ).loc main_arg4)) := by
  have e0 := u4_arg4 m d
  show StableHlo.after stretch5 (U4 m d) (Proc.devRef .tc main_arg4) = _
  generalize U4 m d = W at e0 ⊢
  after_results_simp
  exact e0

theorem u5_arg5 : U5 m d (Proc.devRef .tc main_arg5) = (m ((d.tc : Thread nD τ).loc main_arg5)) := by
  have e0 := u4_arg5 m d
  show StableHlo.after stretch5 (U4 m d) (Proc.devRef .tc main_arg5) = _
  generalize U4 m d = W at e0 ⊢
  after_results_simp
  exact e0

/-! ## Stretch 6 -/

theorem u6_v53 : U6 m d (Proc.devRef .tc main_v53) = val_main_v53 (F := Ideal) (m ((d.tc : Thread nD τ).loc main_arg1)) := by
  have e0 := u5_arg1 m d
  show StableHlo.after stretch6 (U5 m d) (Proc.devRef .tc main_v53) = _
  generalize U5 m d = W at e0 ⊢
  after_results
  rw [e0]
  rfl

theorem u6_v54 : U6 m d (Proc.devRef .tc main_v54) = val_main_v54 (F := Ideal) (m ((d.tc : Thread nD τ).loc main_arg1)) := by
  have e0 := u5_arg1 m d
  show StableHlo.after stretch6 (U5 m d) (Proc.devRef .tc main_v54) = _
  generalize U5 m d = W at e0 ⊢
  after_results
  rw [e0]
  rfl

theorem u6_v60 : U6 m d (Proc.devRef .tc main_v60) = val_main_v60 (F := Ideal) (m ((d.tc : Thread nD τ).loc main_arg1)) := by
  have e0 := u5_arg1 m d
  show StableHlo.after stretch6 (U5 m d) (Proc.devRef .tc main_v60) = _
  generalize U5 m d = W at e0 ⊢
  after_results
  rw [e0]
  rfl

theorem u6_v61 : U6 m d (Proc.devRef .tc main_v61) = val_main_v61 (F := Ideal) (m ((d.tc : Thread nD τ).loc main_arg1)) := by
  have e0 := u5_arg1 m d
  show StableHlo.after stretch6 (U5 m d) (Proc.devRef .tc main_v61) = _
  generalize U5 m d = W at e0 ⊢
  after_results
  rw [e0]
  rfl

theorem u6_cst_12 : U6 m d (Proc.devRef .tc main_cst_12) = val_main_cst_12 (F := Ideal) := by
  show StableHlo.after stretch6 (U5 m d) (Proc.devRef .tc main_cst_12) = _
  generalize U5 m d = W
  after_results_simp <;> rfl

theorem u6_v47 : U6 m d (Proc.devRef .tc main_v47) = val_main_v47 (F := Ideal) (m ((d.tc : Thread nD τ).loc main_arg0)) (m ((d.tc : Thread nD τ).loc main_arg1)) (m ((d.tc : Thread nD τ).loc main_arg2)) (m ((d.tc : Thread nD τ).loc main_arg3)) := by
  have e0 := u5_v47 m d
  show StableHlo.after stretch6 (U5 m d) (Proc.devRef .tc main_v47) = _
  generalize U5 m d = W at e0 ⊢
  after_results_simp
  exact e0

theorem u6_arg4 : U6 m d (Proc.devRef .tc main_arg4) = (m ((d.tc : Thread nD τ).loc main_arg4)) := by
  have e0 := u5_arg4 m d
  show StableHlo.after stretch6 (U5 m d) (Proc.devRef .tc main_arg4) = _
  generalize U5 m d = W at e0 ⊢
  after_results_simp
  exact e0

theorem u6_arg5 : U6 m d (Proc.devRef .tc main_arg5) = (m ((d.tc : Thread nD τ).loc main_arg5)) := by
  have e0 := u5_arg5 m d
  show StableHlo.after stretch6 (U5 m d) (Proc.devRef .tc main_arg5) = _
  generalize U5 m d = W at e0 ⊢
  after_results_simp
  exact e0

/-! ## Stretch 7 -/

/-- The second selection, from any contents. -/
theorem selection2_at (W : Valuation τ sig (Elt Ideal)) :
    StableHlo.after stretch7 W (Proc.devRef .tc main_v62) = select (W (Proc.devRef .tc main_v60)) (W (Proc.devRef .tc main_v61)) (broadcastInDim S100000 ![] bcast_S_S100000 (id (W (Proc.devRef .tc main_cst_12)))) := by
  after_results_simp
  rfl

theorem u7_v62 : U7 m d (Proc.devRef .tc main_v62) = val_main_v62 (F := Ideal) (m ((d.tc : Thread nD τ).loc main_arg1)) := by
  have e0 := u6_v60 m d
  have e1 := u6_v61 m d
  have e2 := u6_cst_12 m d
  refine (selection2_at (U6 m d)).trans ?_
  rw [e0, e1, e2]
  rfl

theorem u7_v53 : U7 m d (Proc.devRef .tc main_v53) = val_main_v53 (F := Ideal) (m ((d.tc : Thread nD τ).loc main_arg1)) := by
  have e0 := u6_v53 m d
  show StableHlo.after stretch7 (U6 m d) (Proc.devRef .tc main_v53) = _
  generalize U6 m d = W at e0 ⊢
  after_results_simp
  exact e0

theorem u7_v54 : U7 m d (Proc.devRef .tc main_v54) = val_main_v54 (F := Ideal) (m ((d.tc : Thread nD τ).loc main_arg1)) := by
  have e0 := u6_v54 m d
  show StableHlo.after stretch7 (U6 m d) (Proc.devRef .tc main_v54) = _
  generalize U6 m d = W at e0 ⊢
  after_results_simp
  exact e0

theorem u7_v47 : U7 m d (Proc.devRef .tc main_v47) = val_main_v47 (F := Ideal) (m ((d.tc : Thread nD τ).loc main_arg0)) (m ((d.tc : Thread nD τ).loc main_arg1)) (m ((d.tc : Thread nD τ).loc main_arg2)) (m ((d.tc : Thread nD τ).loc main_arg3)) := by
  have e0 := u6_v47 m d
  show StableHlo.after stretch7 (U6 m d) (Proc.devRef .tc main_v47) = _
  generalize U6 m d = W at e0 ⊢
  after_results_simp
  exact e0

theorem u7_arg4 : U7 m d (Proc.devRef .tc main_arg4) = (m ((d.tc : Thread nD τ).loc main_arg4)) := by
  have e0 := u6_arg4 m d
  show StableHlo.after stretch7 (U6 m d) (Proc.devRef .tc main_arg4) = _
  generalize U6 m d = W at e0 ⊢
  after_results_simp
  exact e0

theorem u7_arg5 : U7 m d (Proc.devRef .tc main_arg5) = (m ((d.tc : Thread nD τ).loc main_arg5)) := by
  have e0 := u6_arg5 m d
  show StableHlo.after stretch7 (U6 m d) (Proc.devRef .tc main_arg5) = _
  generalize U6 m d = W at e0 ⊢
  after_results_simp
  exact e0

/-! ## Stretch 8 -/

theorem u8_v77 : U8 m d (Proc.devRef .tc main_v77) = val_main_v77 (F := Ideal) (m ((d.tc : Thread nD τ).loc main_arg1)) := by
  have e0 := u7_v62 m d
  have e1 := u7_v53 m d
  have e2 := u7_v54 m d
  show StableHlo.after stretch8 (U7 m d) (Proc.devRef .tc main_v77) = _
  generalize U7 m d = W at e0 e1 e2 ⊢
  after_results_simp
  rw [e0, e1, e2]
  rfl

theorem u8_v53 : U8 m d (Proc.devRef .tc main_v53) = val_main_v53 (F := Ideal) (m ((d.tc : Thread nD τ).loc main_arg1)) := by
  have e0 := u7_v53 m d
  show StableHlo.after stretch8 (U7 m d) (Proc.devRef .tc main_v53) = _
  generalize U7 m d = W at e0 ⊢
  after_results_simp
  exact e0

theorem u8_v54 : U8 m d (Proc.devRef .tc main_v54) = val_main_v54 (F := Ideal) (m ((d.tc : Thread nD τ).loc main_arg1)) := by
  have e0 := u7_v54 m d
  show StableHlo.after stretch8 (U7 m d) (Proc.devRef .tc main_v54) = _
  generalize U7 m d = W at e0 ⊢
  after_results_simp
  exact e0

theorem u8_v47 : U8 m d (Proc.devRef .tc main_v47) = val_main_v47 (F := Ideal) (m ((d.tc : Thread nD τ).loc main_arg0)) (m ((d.tc : Thread nD τ).loc main_arg1)) (m ((d.tc : Thread nD τ).loc main_arg2)) (m ((d.tc : Thread nD τ).loc main_arg3)) := by
  have e0 := u7_v47 m d
  show StableHlo.after stretch8 (U7 m d) (Proc.devRef .tc main_v47) = _
  generalize U7 m d = W at e0 ⊢
  after_results_simp
  exact e0

theorem u8_arg4 : U8 m d (Proc.devRef .tc main_arg4) = (m ((d.tc : Thread nD τ).loc main_arg4)) := by
  have e0 := u7_arg4 m d
  show StableHlo.after stretch8 (U7 m d) (Proc.devRef .tc main_arg4) = _
  generalize U7 m d = W at e0 ⊢
  after_results_simp
  exact e0

theorem u8_arg5 : U8 m d (Proc.devRef .tc main_arg5) = (m ((d.tc : Thread nD τ).loc main_arg5)) := by
  have e0 := u7_arg5 m d
  show StableHlo.after stretch8 (U7 m d) (Proc.devRef .tc main_arg5) = _
  generalize U7 m d = W at e0 ⊢
  after_results_simp
  exact e0

/-! ## Stretch 9 -/

/-- The array whose rows the log-softmax normalises. -/
theorem u9_v94 : U9 m d (Proc.devRef .tc main_v94) = val_main_v94 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  have e0 := u8_v47 m d
  have e1 := u8_arg4 m d
  have e2 := u8_arg5 m d
  have e3 := u8_v53 m d
  have e4 := u8_v54 m d
  have e5 := u8_v77 m d
  show StableHlo.after stretch9 (U8 m d) (Proc.devRef .tc main_v94) = _
  generalize U8 m d = W at e0 e1 e2 e3 e4 e5 ⊢
  after_results_simp
  rw [e0, e1, e2, e3, e4, e5]
  rfl

/-! ## Stretches 10 to 14: the log-softmax

Each of these five stretches is part of an outlined function, whose operations pass every value through its buffer's
type.  Each is read from any contents whose input buffers hold given arrays; the passages through the buffers' types
then cancel, and what is left is the operation on the arrays. -/

/-- Each row's maximum. -/
theorem rowMaxima_at (W : Valuation τ sig (Elt Ideal)) (X0 : FVec Ideal S100000x40 .f32)
    (h0 : W (Proc.devRef .tc main_v94) = (TRef.of (T := ⟨S100000x40, .f32⟩) main_v94 : TRef sig ⟨S100000x40, .f32⟩).toBuf X0) :
    StableHlo.after stretch10 W (Proc.devRef .tc main_call3_v0)
      = (TRef.of (T := ⟨S100000, .f32⟩) main_call3_v0 : TRef sig ⟨S100000, .f32⟩).toBuf (Host.reduce FloatOps.maximumf (X0) (constant (F := Ideal) S_ .f32 0xFF800000#32) reducesTo_S100000x40_S100000_d1 h_S_ : FVec Ideal S100000 .f32) := by
  after_results_simp
  rw [h0]
  simp only [TRef.ofBuf, TRef.toBuf, cast_cast, cast_eq]

theorem u10_call3_v0 : U10 m d (Proc.devRef .tc main_call3_v0) = val_main_call3_v0 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  refine ((rowMaxima_at (U9 m d) _ ((u9_v94 m d).trans (eq_of_heq (cast_heq _ _)).symm)).trans (eq_of_heq (cast_heq _ _))).trans ?_
  rfl

theorem u10_v94 : U10 m d (Proc.devRef .tc main_v94) = val_main_v94 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  have e0 := u9_v94 m d
  show StableHlo.after stretch10 (U9 m d) (Proc.devRef .tc main_v94) = _
  generalize U9 m d = W at e0 ⊢
  after_results_simp
  exact e0

/-- The maximum once more against minus infinity. -/
theorem againstBottom_at (W : Valuation τ sig (Elt Ideal)) (X0 : FVec Ideal S100000 .f32)
    (h0 : W (Proc.devRef .tc main_call3_v0) = (TRef.of (T := ⟨S100000, .f32⟩) main_call3_v0 : TRef sig ⟨S100000, .f32⟩).toBuf X0) :
    StableHlo.after stretch11 W (Proc.devRef .tc main_call3_v2)
      = (TRef.of (T := ⟨S100000, .f32⟩) main_call3_v2 : TRef sig ⟨S100000, .f32⟩).toBuf (maximumf (broadcastInDim S100000 ![] bcast_S_S100000 (constant (F := Ideal) S_ .f32 0xFF800000#32)) (X0) : FVec Ideal S100000 .f32) := by
  after_results_simp
  rw [h0]
  simp only [TRef.ofBuf, TRef.toBuf, cast_cast, cast_eq]

theorem u11_call3_v2 : U11 m d (Proc.devRef .tc main_call3_v2) = val_main_call3_v2 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  refine ((againstBottom_at (U10 m d) _ ((u10_call3_v0 m d).trans (eq_of_heq (cast_heq _ _)).symm)).trans (eq_of_heq (cast_heq _ _))).trans ?_
  rfl

theorem u11_v94 : U11 m d (Proc.devRef .tc main_v94) = val_main_v94 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  have e0 := u10_v94 m d
  show StableHlo.after stretch11 (U10 m d) (Proc.devRef .tc main_v94) = _
  generalize U10 m d = W at e0 ⊢
  after_results_simp
  exact e0

/-- The array shifted by the row maxima. -/
theorem shifted_at (W : Valuation τ sig (Elt Ideal)) (X0 : FVec Ideal S100000x40 .f32) (X1 : FVec Ideal S100000 .f32)
    (h0 : W (Proc.devRef .tc main_v94) = (TRef.of (T := ⟨S100000x40, .f32⟩) main_v94 : TRef sig ⟨S100000x40, .f32⟩).toBuf X0)
    (h1 : W (Proc.devRef .tc main_call3_v2) = (TRef.of (T := ⟨S100000, .f32⟩) main_call3_v2 : TRef sig ⟨S100000, .f32⟩).toBuf X1) :
    StableHlo.after stretch12 W (Proc.devRef .tc main_call3_v5)
      = (TRef.of (T := ⟨S100000x40, .f32⟩) main_call3_v5 : TRef sig ⟨S100000x40, .f32⟩).toBuf (subf (X0) (broadcastInDim S100000x40 ![0, 1] bcast_S100000x1_S100000x40_0_1 (broadcastInDim S100000x1 ![0] bcast_S100000_S100000x1_0 (X1))) : FVec Ideal S100000x40 .f32) := by
  after_results_simp
  rw [h0, h1]
  simp only [TRef.ofBuf, TRef.toBuf, cast_cast, cast_eq]

theorem u12_call3_v5 : U12 m d (Proc.devRef .tc main_call3_v5) = val_main_call3_v5 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  refine ((shifted_at (U11 m d) _ _ ((u11_v94 m d).trans (eq_of_heq (cast_heq _ _)).symm) ((u11_call3_v2 m d).trans (eq_of_heq (cast_heq _ _)).symm)).trans (eq_of_heq (cast_heq _ _))).trans ?_
  rfl

/-- The sums of the exponentials of the shifted rows. -/
theorem expSums_at (W : Valuation τ sig (Elt Ideal)) (X0 : FVec Ideal S100000x40 .f32)
    (h0 : W (Proc.devRef .tc main_call3_v5) = (TRef.of (T := ⟨S100000x40, .f32⟩) main_call3_v5 : TRef sig ⟨S100000x40, .f32⟩).toBuf X0) :
    StableHlo.after stretch13 W (Proc.devRef .tc main_call3_v7)
      = (TRef.of (T := ⟨S100000, .f32⟩) main_call3_v7 : TRef sig ⟨S100000, .f32⟩).toBuf (Host.reduceAdd (Host.exp (X0)) (constant (F := Ideal) S_ .f32 0x00000000#32) reducesTo_S100000x40_S100000_d1 h_S_ : FVec Ideal S100000 .f32) := by
  after_results_simp
  rw [h0]
  simp only [TRef.ofBuf, TRef.toBuf, cast_cast, cast_eq]

theorem u13_call3_v7 : U13 m d (Proc.devRef .tc main_call3_v7) = val_main_call3_v7 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  refine ((expSums_at (U12 m d) _ ((u12_call3_v5 m d).trans (eq_of_heq (cast_heq _ _)).symm)).trans (eq_of_heq (cast_heq _ _))).trans ?_
  rfl

theorem u13_call3_v5 : U13 m d (Proc.devRef .tc main_call3_v5) = val_main_call3_v5 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  have e0 := u12_call3_v5 m d
  show StableHlo.after stretch13 (U12 m d) (Proc.devRef .tc main_call3_v5) = _
  generalize U12 m d = W at e0 ⊢
  after_results_simp
  exact e0

/-- The shifted array minus the logarithms of the sums. -/
theorem normalised_at (W : Valuation τ sig (Elt Ideal)) (X0 : FVec Ideal S100000x40 .f32) (X1 : FVec Ideal S100000 .f32)
    (h0 : W (Proc.devRef .tc main_call3_v5) = (TRef.of (T := ⟨S100000x40, .f32⟩) main_call3_v5 : TRef sig ⟨S100000x40, .f32⟩).toBuf X0)
    (h1 : W (Proc.devRef .tc main_call3_v7) = (TRef.of (T := ⟨S100000, .f32⟩) main_call3_v7 : TRef sig ⟨S100000, .f32⟩).toBuf X1) :
    StableHlo.after stretch14 W (Proc.devRef .tc main_v95)
      = (TRef.of (T := ⟨S100000x40, .f32⟩) main_v95 : TRef sig ⟨S100000x40, .f32⟩).toBuf (subf (X0) (broadcastInDim S100000x40 ![0, 1] bcast_S100000x1_S100000x40_0_1 (Host.log (broadcastInDim S100000x1 ![0] bcast_S100000_S100000x1_0 (X1)))) : FVec Ideal S100000x40 .f32) := by
  after_results_simp
  rw [h0, h1]
  simp only [TRef.ofBuf, TRef.toBuf, cast_cast, cast_eq]

/-- The result. -/
theorem u14_v95 : U14 m d (Proc.devRef .tc main_v95) = val_main_v95 (F := Ideal) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  refine ((normalised_at (U13 m d) _ _ ((u13_call3_v5 m d).trans (eq_of_heq (cast_heq _ _)).symm) ((u13_call3_v7 m d).trans (eq_of_heq (cast_heq _ _)).symm)).trans (eq_of_heq (cast_heq _ _))).trans ?_
  rfl

/-! ## The run -/

set_option maxHeartbeats 55200000 in
/-- From any memory with zero counters every weakly fair execution of the reference's @main terminates with the result
    at the last stage function of the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v95) = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (by rw [after_ops]; exact u14_v95 m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Result

end
-- ==== Proof.KernelRun.lean ====
/-
  The kernel's run, with its result named.

  @main is nine segments: stretches of host operations and four pallas_calls.  The contents of every buffer at each
  segment boundary are a fold through the segments from the launch memory; the last boundary's contents are what the
  final state holds.  The frame reads only the six arguments off that last boundary.  Read here, off the same boundary,
  is also the result array: every weakly fair execution terminates, nothing faulting, with the result at the last
  boundary's contents of its buffer and the arguments as launched.
-/
import proofs.«104228_j82592221102830_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the final
    state holds, in the result's buffer, the contents the fold assigns to it after the last pallas_call, and the six
    argument arrays as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ResultRun

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.FirstProduct.lean ====
/-
  The first matrix product of the kernel: what the first pallas_call leaves in its result array.

  The call walks the 100000 rows of the node features in ten blocks of 10000 rows; at each block it multiplies the
  block (10000 x 128) by the whole first weight matrix (128 x 64) on the matrix unit, into a zero accumulator, after a
  change of float format that is the identity on exact values.  Block `t` of the result is rows
  `10000 t … 10000 t + 9999`, and the ten blocks tile the result, so the result array is ONE function of the two
  arrays the call reads: entry (r, c) is the sum over k of features(r, k) · weights(k, c).
-/
import proofs.«104228_j82592221102830_1_alg».proof.Proof.Gen.KernelIdeal.Frame
import proofs.«104228_j82592221102830_1_alg».proof.Proof.LibMatmul
import Idealize.ShloMosaic.Lib.Pipeline.Value
import Idealize.ShloMosaic.Lib.ValueIdx

set_option maxRecDepth 16384

noncomputable section

namespace Cert.KernelIdeal.FirstProduct

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- Rows times columns: entry (r, c) of the product of a 100000 x 128 and a 128 x 64 matrix. -/
def product (x : S100000x128.Idx → EReal) (w : S128x64.Idx → EReal) : S100000x64.Idx → EReal :=
  fun i => ∑ k : Fin 128, x (ix2 (n0 := 100000) (i 0) k) * w (ix2 k (n1 := 64) (i 1))

/-- One block's product at an entry: the format changes are the identity, the accumulator is zero. -/
theorem block_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) :=
  Cert.MatmulAt.matmul_zero_plain_apply Facts₀.dot_S10000x128_S128x64_S10000x64_1_0_0_1_n_n_wf none x0 x1 p q

theorem zeroStart : (![0, 0] : Fin 2 → Nat) = fun _ => 0 := funext fun a => by fin_cases a <;> rfl

/-- Where each window's block sits at grid point `t`: the features and the result at row block `t`, the weights whole. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the result is some grid point's. -/
theorem blockOnto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What grid point `t` writes back is block `t` of the product of the two arrays as the call finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeroStart]
  simp only [View.ld_unit_zero (S := S10000x128) zeroStart, View.ld_unit_zero (S := S128x64) zeroStart]
  obtain ⟨e0, e1, e2, e3, e4, e5⟩ := blockIndex t
  funext j
  obtain ⟨p, q, rfl⟩ : ∃ (p : Fin 10000) (q : Fin 64), j = ix2 p q := ⟨j 0, j 1, eq_ix2 j⟩
  refine (block_apply (iblk0 V c 0 t) (iblk0 V c 1 t) p q).trans ?_
  show _ = product (V c main_arg0) (V c main_arg2) (((cfg0.win 2).blk t).view.emb (ix2 p q))
  unfold product
  refine Finset.sum_congr rfl fun k _ => ?_
  congr 1
  · show V c main_arg0 (((cfg0.win 0).blk t).view.emb (ix2 p k)) = V c main_arg0 _
    congr 1; funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · show V c main_arg2 (((cfg0.win 1).blk t).view.emb (ix2 k q)) = V c main_arg2 _
    congr 1; funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the result is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks cover the result: row `r` is in block `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := blockOnto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the call: the product of the features and the weights as the call finds them. -/
theorem result (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.FirstProduct

end
-- ==== Proof.SecondProduct.lean ====
/-
  The second matrix product of the kernel: what the third pallas_call leaves in its result array.

  As for the first product, ten blocks of 10000 rows of the hidden features (100000 x 64) are multiplied by the whole
  second weight matrix (64 x 40) into a zero accumulator; the format changes and the cast of a block to its own shape
  are the identity on exact values.  The result array is one function of the two arrays the call reads: entry (r, c)
  is the sum over k of hidden(r, k) · weights(k, c).
-/
import proofs.«104228_j82592221102830_1_alg».proof.Proof.Gen.KernelIdeal.Frame
import proofs.«104228_j82592221102830_1_alg».proof.Proof.LibMatmul
import Idealize.ShloMosaic.Lib.Pipeline.Value
import Idealize.ShloMosaic.Lib.ValueIdx

set_option maxRecDepth 16384

noncomputable section

namespace Cert.KernelIdeal.SecondProduct

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- Rows times columns: entry (r, c) of the product of a 100000 x 64 and a 64 x 40 matrix. -/
def product (x : S100000x64.Idx → EReal) (w : S64x40.Idx → EReal) : S100000x40.Idx → EReal :=
  fun i => ∑ k : Fin 64, x (ix2 (n0 := 100000) (i 0) k) * w (ix2 k (n1 := 40) (i 1))

/-- One block's product at an entry. -/
theorem block_apply (x0 : Vec Ideal S10000x64 .f32) (x1 : Vec Ideal S64x40 .f32) (p : Fin 10000) (q : Fin 40) :
    k2_pay1 (F := Ideal) x0 x1 (ix2 p q) = ∑ k : Fin 64, x0 (ix2 p k) * x1 (ix2 k q) := by
  unfold k2_pay1
  rw [shapeCast_self]
  exact Cert.MatmulAt.matmul_zero_plain_apply Facts₀.dot_S10000x64_S64x40_S10000x40_1_0_0_1_n_n_wf none x0 x1 p q

theorem zeroStart : (![0, 0] : Fin 2 → Nat) = fun _ => 0 := funext fun a => by fin_cases a <;> rfl

/-- Every row block of the result is some grid point's. -/
theorem blockOnto : ∀ q0 : Fin 10, ∃ t : Fin cfg2.N, win2_2.index t = ![q0.val, 0] :=
  (by decide +kernel : ∀ q0 : Fin 10, ∃ t : Fin grid2.N, win2_2.index t = ![q0.val, 0])

/-- Where each window's block sits at grid point `t`: the first operand and the result at row block `t`, the second operand whole. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point `t` writes back is block `t` of the product of the two arrays as the call finds them. -/
theorem flushed_eq (c : Dev nD) (t : Fin cfg2.N) :
    (dat2 V c).flushed 2 t = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero zeroStart]
  simp only [View.ld_unit_zero (S := S10000x64) zeroStart, View.ld_unit_zero (S := S64x40) zeroStart]
  obtain ⟨e0, e1, e2, e3, e4, e5⟩ := blockIndex t
  funext j
  obtain ⟨p, q, rfl⟩ : ∃ (p : Fin 10000) (q : Fin 40), j = ix2 p q := ⟨j 0, j 1, eq_ix2 j⟩
  refine (block_apply (iblk2 V c 0 t) (iblk2 V c 1 t) p q).trans ?_
  show _ = product (V c main_v45) (V c main_arg4) (((cfg2.win 2).blk t).view.emb (ix2 p q))
  unfold product
  refine Finset.sum_congr rfl fun k _ => ?_
  congr 1
  · show V c main_v45 (((cfg2.win 0).blk t).view.emb (ix2 p k)) = V c main_v45 _
    congr 1; funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  · show V c main_arg4 (((cfg2.win 1).blk t).view.emb (ix2 k q)) = V c main_arg4 _
    congr 1; funext a; apply Fin.ext
    match a with
    | ⟨0, _⟩ => show win2_1.index t (0 : Fin 2) * 64 + 1 * k.val = k.val; omega
    | ⟨1, _⟩ => show win2_1.index t (1 : Fin 2) * 40 + 1 * q.val = win2_2.index t (1 : Fin 2) * 40 + 1 * q.val; omega

/-- An index of the result is in point `t`'s block iff each coordinate is in the block's range on its axis. -/
theorem mem_block (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v46).slice (win2_2.rect t)).set ↔ _
  rw [View.set_slice_whole, Rect.mem_set_unit]
  exact Iff.rfl

/-- The ten row blocks cover the result: row `r` is in block `r / 10000`. -/
theorem cover (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := blockOnto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- The result array after the call, as one function of the two arrays the call reads. -/
theorem result (c : Dev nD) : (dat2 V c).arrAt 2 cfg2.N = product (V c main_v45) (V c main_arg4) :=
  (dat2 V c).arrAt_eq_of_cover 2 (product (V c main_v45) (V c main_arg4)) (fun t _ => flushed_eq V c t) cover

end Cert.KernelIdeal.SecondProduct

end
-- ==== Proof.BiasRelu.lean ====
/-
  The bias and the rectifier of the first layer: what the second pallas_call leaves in its result array.

  Ten blocks of 10000 rows of the aggregated features (100000 x 64) each get the bias row (1 x 64) added to every row
  and are then clipped below at zero.  The result array is one function of the two arrays the call reads: entry (r, c)
  is max (agg(r, c) + bias(0, c), 0).
-/
import proofs.«104228_j82592221102830_1_alg».proof.Proof.Gen.KernelIdeal.Frame
import Idealize.ShloMosaic.Lib.ValueLayout
import Idealize.ShloMosaic.PureOps.Ideal.Laws
import Idealize.ShloMosaic.Lib.Pipeline.Value
import Idealize.ShloMosaic.Lib.ValueIdx

set_option maxRecDepth 16384

noncomputable section

namespace Cert.KernelIdeal.BiasRelu

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- Add the bias row to every row, clip below at zero. -/
def biasRelu (a : S100000x64.Idx → EReal) (b : S1x64.Idx → EReal) : S100000x64.Idx → EReal :=
  fun i => max (a i + b (ix2 (0 : Fin 1) (n1 := 64) (i 1))) 0

/-- One block at an entry: the casts of a block to its own shape are the identity, the bias row is repeated down the rows. -/
theorem block_apply (x0 : Vec Ideal S10000x64 .f32) (x1 : Vec Ideal S1x64 .f32) (p : Fin 10000) (q : Fin 64) :
    k1_pay1 (F := Ideal) x0 x1 (ix2 p q) = max (x0 (ix2 p q) + x1 (ix2 (0 : Fin 1) q)) 0 := by
  unfold k1_pay1
  simp only [shapeCast_self]
  rw [maximumf_apply, addf_apply, broadcastTo_1b_ab_apply, broadcast_apply]
  show max _ (Ideal.ofBits .f32 0x00000000#32) = _
  rw [Ideal.ofBits_zero_f32]

theorem zeroStart : (![0, 0] : Fin 2 → Nat) = fun _ => 0 := funext fun a => by fin_cases a <;> rfl

/-- Every row block of the result is some grid point's. -/
theorem blockOnto : ∀ q0 : Fin 10, ∃ t : Fin cfg1.N, win1_2.index t = ![q0.val, 0] :=
  (by decide +kernel : ∀ q0 : Fin 10, ∃ t : Fin grid1.N, win1_2.index t = ![q0.val, 0])

/-- Where each window's block sits at grid point `t`: the first operand and the result at row block `t`, the second operand whole. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point `t` writes back is block `t` of that function of the two arrays as the call finds them. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero zeroStart]
  simp only [View.ld_unit_zero (S := S10000x64) zeroStart, View.ld_unit_zero (S := S1x64) zeroStart]
  obtain ⟨e0, e1, e2, e3, e4, e5⟩ := blockIndex t
  funext j
  obtain ⟨p, q, rfl⟩ : ∃ (p : Fin 10000) (q : Fin 64), j = ix2 p q := ⟨j 0, j 1, eq_ix2 j⟩
  refine (block_apply (iblk1 V c 0 t) (iblk1 V c 1 t) p q).trans ?_
  have ht : t.val < 10 := lt_of_lt_of_eq t.isLt N_1
  have hp : p.val < 10000 := p.isLt
  -- the block's row `p` is row `10000 t + p` of the array
  have hemb : ((cfg1.win 2).blk t).view.emb (ix2 p q) = ix2 (n0 := 100000) (n1 := 64) ⟨t.val * 10000 + p.val, by omega⟩ q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  show _ = biasRelu (V c main_v43) (V c main_v44) (((cfg1.win 2).blk t).view.emb (ix2 p q))
  rw [hemb]
  unfold biasRelu
  refine congrArg (fun z : EReal => max z 0) (congrArg₂ (fun x y : EReal => x + y) ?_ ?_)
  · refine congrArg (V c main_v43) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  · refine congrArg (V c main_v44) ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega

/-- An index of the result is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The ten row blocks cover the result: row `r` is in block `r / 10000`. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := blockOnto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the call, as one function of the two arrays the call reads. -/
theorem result (c : Dev nD) : (dat1 V c).arrAt 2 cfg1.N = biasRelu (V c main_v43) (V c main_v44) :=
  (dat1 V c).arrAt_eq_of_cover 2 (biasRelu (V c main_v43) (V c main_v44)) (fun t _ => flushed_eq V c t) cover

end Cert.KernelIdeal.BiasRelu

end
-- ==== Proof.StageFunctions.lean ====
/-
  The kernel's stages and the reference's stages are the same functions of their inputs.

  Three of the kernel's four pallas_calls compute, block by block, what the reference computes in one host operation
  or two: a matrix product (the matrix unit's product into a zero accumulator against the host's dot_general: both
  are the sum over k of a(r, k) · b(k, c)), and the bias row added to every row followed by the maximum with zero
  (against the host's broadcast, add and maximum).  Stated here as equalities of whole arrays.
-/
import proofs.«104228_j82592221102830_1_alg».proof.Proof.FirstProduct
import proofs.«104228_j82592221102830_1_alg».proof.Proof.SecondProduct
import proofs.«104228_j82592221102830_1_alg».proof.Proof.BiasRelu
import proofs.«104228_j82592221102830_1_alg».proof.Proof.ReferenceRead
import Idealize.ShloMosaic.Lib.ValueLayout
import Idealize.ShloMosaic.PureOps.Ideal.Laws

noncomputable section

namespace Cert.StageFunctions

open Idealize.ShloMosaic Idealize.ShloMosaic.ValueIdx
open scoped BigOperators

/-- The first product is the reference's first dot_general. -/
theorem firstProduct_eq (x0 : Cert.KernelIdeal.S100000x128.Idx → EReal) (x2 : Cert.KernelIdeal.S128x64.Idx → EReal) :
    Cert.KernelIdeal.FirstProduct.product x0 x2 = Cert.ReferenceIdeal.Read.val_main_v30 (F := Ideal) x0 x2 := by
  funext i
  refine Eq.trans ?_ (Cert.ReferenceIdeal.Read.val_main_v30_apply x0 x2 i).symm
  unfold Cert.KernelIdeal.FirstProduct.product
  refine Finset.sum_congr rfl fun k _ => ?_
  exact congrArg₂ (· * ·)
    (congrArg x0 (funext fun a => by match a with | ⟨0, _⟩ => rfl | ⟨1, _⟩ => rfl))
    (congrArg x2 (funext fun a => by match a with | ⟨0, _⟩ => rfl | ⟨1, _⟩ => rfl))

/-- The bias row added to every row and the maximum with zero are the reference's broadcast, add and maximum. -/
theorem biasRelu_eq (x0 : Cert.KernelIdeal.S100000x128.Idx → EReal) (x1 : Cert.KernelIdeal.S2x1600000.Idx → BitVec 32) (x2 : Cert.KernelIdeal.S128x64.Idx → EReal)
    (x3 : Cert.KernelIdeal.S64.Idx → EReal) (h : Cert.KernelIdeal.S64.ShapeCasts Cert.KernelIdeal.S1x64) :
    Cert.KernelIdeal.BiasRelu.biasRelu (Cert.ReferenceIdeal.Read.val_main_v43 (F := Ideal) x0 x1 x2) (shapeCast Cert.KernelIdeal.S1x64 x3 h)
      = Cert.ReferenceIdeal.Read.val_main_v47 (F := Ideal) x0 x1 x2 x3 := by
  funext i
  obtain ⟨p, q, rfl⟩ : ∃ (p : Fin 100000) (q : Fin 64), i = ix2 p q := ⟨i 0, i 1, eq_ix2 i⟩
  rw [Cert.ReferenceIdeal.Read.val_main_v47_apply, Cert.ReferenceIdeal.Read.val_main_v46_apply, Cert.ReferenceIdeal.Read.val_main_v45_apply, Cert.ReferenceIdeal.Read.val_main_v44_apply,
    Cert.ReferenceIdeal.Read.val_main_call1_v0_apply, Cert.ReferenceIdeal.Read.val_main_call1_cst_apply]
  unfold Cert.KernelIdeal.BiasRelu.biasRelu
  show max (_ + shapeCast _ x3 h (ix2 (0 : Fin 1) q)) 0 = max (_ + x3 _) (Ideal.ofBits .f32 0x00000000#32)
  rw [Ideal.ofBits_zero_f32, shapeCast_a_1a_apply]
  exact congrArg (fun z => max (_ + x3 z) 0) (funext fun a => by match a with | ⟨0, _⟩ => rfl)

/-- The second product is the reference's second dot_general. -/
theorem secondProduct_eq (x0 : Cert.KernelIdeal.S100000x128.Idx → EReal) (x1 : Cert.KernelIdeal.S2x1600000.Idx → BitVec 32) (x2 : Cert.KernelIdeal.S128x64.Idx → EReal)
    (x3 : Cert.KernelIdeal.S64.Idx → EReal) (x4 : Cert.KernelIdeal.S64x40.Idx → EReal) :
    Cert.KernelIdeal.SecondProduct.product (Cert.ReferenceIdeal.Read.val_main_v47 (F := Ideal) x0 x1 x2 x3) x4 = Cert.ReferenceIdeal.Read.val_main_v78 (F := Ideal) x0 x1 x2 x3 x4 := by
  funext i
  refine Eq.trans ?_ (Cert.ReferenceIdeal.Read.val_main_v78_apply x0 x1 x2 x3 x4 i).symm
  unfold Cert.KernelIdeal.SecondProduct.product
  refine Finset.sum_congr rfl fun k _ => ?_
  exact congrArg₂ (· * ·)
    (congrArg (Cert.ReferenceIdeal.Read.val_main_v47 (F := Ideal) x0 x1 x2 x3) (funext fun a => by match a with | ⟨0, _⟩ => rfl | ⟨1, _⟩ => rfl))
    (congrArg x4 (funext fun a => by match a with | ⟨0, _⟩ => rfl | ⟨1, _⟩ => rfl))

end Cert.StageFunctions

end
-- ==== Proof.FirstLayer.lean ====
/-
  The kernel's buffers up to the end of the first layer's aggregation, as functions of the six arguments.

  Before the first pallas_call the host computes, from the edge list alone, the source and destination lists with the
  self loops appended, the degrees, their inverse square roots where positive, and the edge weights
  `deg^(-1/2)[src] · deg^(-1/2)[dst]`; the arguments themselves are not written.  The first call's result is the product
  of the features and the first weights.  The host then gathers the product's rows at the sources, scales them by the
  edge weights and sums them into the destinations, and reshapes the first bias to a row.  Each of these buffers is read
  here, stretch of host operations by stretch, as the reference's own function of the arguments.
-/
import proofs.«104228_j82592221102830_1_alg».proof.Proof.StageFunctions
import Idealize.ShloMosaic.Lib.StableHlo.Run

set_option maxRecDepth 65536

noncomputable section

namespace Cert.KernelIdeal.FirstLayer

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## After the first stretch: the lists, the degrees compared with zero, their inverse square roots -/

theorem w1_arg0 : W1 m ρ c (Proc.devRef .tc main_arg0) = (m ((c : Thread nD τ).loc main_arg0)) := by
  show StableHlo.after hostOps0 (W0 m ρ c) (Proc.devRef .tc main_arg0) = _
  after_results_simp <;> rfl

theorem w1_arg2 : W1 m ρ c (Proc.devRef .tc main_arg2) = (m ((c : Thread nD τ).loc main_arg2)) := by
  show StableHlo.after hostOps0 (W0 m ρ c) (Proc.devRef .tc main_arg2) = _
  after_results_simp <;> rfl

theorem w1_arg3 : W1 m ρ c (Proc.devRef .tc main_arg3) = (m ((c : Thread nD τ).loc main_arg3)) := by
  show StableHlo.after hostOps0 (W0 m ρ c) (Proc.devRef .tc main_arg3) = _
  after_results_simp <;> rfl

theorem w1_arg4 : W1 m ρ c (Proc.devRef .tc main_arg4) = (m ((c : Thread nD τ).loc main_arg4)) := by
  show StableHlo.after hostOps0 (W0 m ρ c) (Proc.devRef .tc main_arg4) = _
  after_results_simp <;> rfl

theorem w1_arg5 : W1 m ρ c (Proc.devRef .tc main_arg5) = (m ((c : Thread nD τ).loc main_arg5)) := by
  show StableHlo.after hostOps0 (W0 m ρ c) (Proc.devRef .tc main_arg5) = _
  after_results_simp <;> rfl

theorem w1_v5 : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  after_results_simp <;> rfl

theorem w1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp <;> rfl

theorem w1_v12 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  after_results_simp <;> rfl

theorem w1_v13 : W1 m ρ c (Proc.devRef .tc main_v13) = Cert.ReferenceIdeal.Read.val_main_v13 (F := Ideal) (m ((c : Thread nD τ).loc main_arg1)) := by
  show StableHlo.after hostOps0 (W0 m ρ c) (Proc.devRef .tc main_v13) = _
  after_results_simp <;> rfl

theorem w1_cst_2 : W1 m ρ c (Proc.devRef .tc main_cst_2) = Cert.ReferenceIdeal.Read.val_main_cst_2 (F := Ideal) := by
  show StableHlo.after hostOps0 (W0 m ρ c) (Proc.devRef .tc main_cst_2) = _
  after_results_simp <;> rfl

/-! ## After the selection: the inverse square root where the degree is positive, zero elsewhere -/

/-- The selection, from any contents: the inverse square root where the comparison holds, the constant elsewhere. -/
theorem selection_at (W : Valuation τ sig (Elt Ideal)) :
    StableHlo.after hostOps0_1 W (Proc.devRef .tc main_v14) = select (W (Proc.devRef .tc main_v12)) (W (Proc.devRef .tc main_v13)) (broadcastInDim S100000 ![] bcast_S_S100000 (id (W (Proc.devRef .tc main_cst_2)))) := by
  after_results_simp
  rfl

theorem w2_v14 : W2 m ρ c (Proc.devRef .tc main_v14) = Cert.ReferenceIdeal.Read.val_main_v14 (F := Ideal) (m ((c : Thread nD τ).loc main_arg1)) := by
  have e0 := w1_v12 m ρ c
  have e1 := w1_v13 m ρ c
  have e2 := w1_cst_2 m ρ c
  refine (selection_at (W1 m ρ c)).trans ?_
  rw [e0, e1, e2]
  rfl

theorem w2_v5 : W2 m ρ c (Proc.devRef .tc main_v5) = Cert.ReferenceIdeal.Read.val_main_v5 (F := Ideal) (m ((c : Thread nD τ).loc main_arg1)) := by
  have e0 := w1_v5 m ρ c
  show StableHlo.after hostOps0_1 (W1 m ρ c) (Proc.devRef .tc main_v5) = _
  generalize W1 m ρ c = W at e0 ⊢
  after_results_simp
  exact e0

theorem w2_v6 : W2 m ρ c (Proc.devRef .tc main_v6) = Cert.ReferenceIdeal.Read.val_main_v6 (F := Ideal) (m ((c : Thread nD τ).loc main_arg1)) := by
  have e0 := w1_v6 m ρ c
  show StableHlo.after hostOps0_1 (W1 m ρ c) (Proc.devRef .tc main_v6) = _
  generalize W1 m ρ c = W at e0 ⊢
  after_results_simp
  exact e0

theorem w2_arg0 : W2 m ρ c (Proc.devRef .tc main_arg0) = (m ((c : Thread nD τ).loc main_arg0)) := by
  have e0 := w1_arg0 m ρ c
  show StableHlo.after hostOps0_1 (W1 m ρ c) (Proc.devRef .tc main_arg0) = _
  generalize W1 m ρ c = W at e0 ⊢
  after_results_simp
  exact e0

theorem w2_arg2 : W2 m ρ c (Proc.devRef .tc main_arg2) = (m ((c : Thread nD τ).loc main_arg2)) := by
  have e0 := w1_arg2 m ρ c
  show StableHlo.after hostOps0_1 (W1 m ρ c) (Proc.devRef .tc main_arg2) = _
  generalize W1 m ρ c = W at e0 ⊢
  after_results_simp
  exact e0

theorem w2_arg3 : W2 m ρ c (Proc.devRef .tc main_arg3) = (m ((c : Thread nD τ).loc main_arg3)) := by
  have e0 := w1_arg3 m ρ c
  show StableHlo.after hostOps0_1 (W1 m ρ c) (Proc.devRef .tc main_arg3) = _
  generalize W1 m ρ c = W at e0 ⊢
  after_results_simp
  exact e0

theorem w2_arg4 : W2 m ρ c (Proc.devRef .tc main_arg4) = (m ((c : Thread nD τ).loc main_arg4)) := by
  have e0 := w1_arg4 m ρ c
  show StableHlo.after hostOps0_1 (W1 m ρ c) (Proc.devRef .tc main_arg4) = _
  generalize W1 m ρ c = W at e0 ⊢
  after_results_simp
  exact e0

theorem w2_arg5 : W2 m ρ c (Proc.devRef .tc main_arg5) = (m ((c : Thread nD τ).loc main_arg5)) := by
  have e0 := w1_arg5 m ρ c
  show StableHlo.after hostOps0_1 (W1 m ρ c) (Proc.devRef .tc main_arg5) = _
  generalize W1 m ρ c = W at e0 ⊢
  after_results_simp
  exact e0

/-! ## When the first pallas_call starts -/

/-- The edge weights. -/
theorem at3_v29 : W3 m ρ c (Proc.devRef .tc main_v29) = Cert.ReferenceIdeal.Read.val_main_v29 (F := Ideal) (m ((c : Thread nD τ).loc main_arg1)) := by
  have e0 := w2_v14 m ρ c
  have e1 := w2_v5 m ρ c
  have e2 := w2_v6 m ρ c
  show StableHlo.after hostOps0_2 (W2 m ρ c) (Proc.devRef .tc main_v29) = _
  generalize W2 m ρ c = W at e0 e1 e2 ⊢
  after_results_simp
  rw [e0, e1, e2]
  rfl

theorem at3_v5 : W3 m ρ c (Proc.devRef .tc main_v5) = Cert.ReferenceIdeal.Read.val_main_v5 (F := Ideal) (m ((c : Thread nD τ).loc main_arg1)) := by
  have e0 := w2_v5 m ρ c
  show StableHlo.after hostOps0_2 (W2 m ρ c) (Proc.devRef .tc main_v5) = _
  generalize W2 m ρ c = W at e0 ⊢
  after_results_simp
  exact e0

theorem at3_v6 : W3 m ρ c (Proc.devRef .tc main_v6) = Cert.ReferenceIdeal.Read.val_main_v6 (F := Ideal) (m ((c : Thread nD τ).loc main_arg1)) := by
  have e0 := w2_v6 m ρ c
  show StableHlo.after hostOps0_2 (W2 m ρ c) (Proc.devRef .tc main_v6) = _
  generalize W2 m ρ c = W at e0 ⊢
  after_results_simp
  exact e0

theorem at3_arg0 : W3 m ρ c (Proc.devRef .tc main_arg0) = (m ((c : Thread nD τ).loc main_arg0)) := by
  have e0 := w2_arg0 m ρ c
  show StableHlo.after hostOps0_2 (W2 m ρ c) (Proc.devRef .tc main_arg0) = _
  generalize W2 m ρ c = W at e0 ⊢
  after_results_simp
  exact e0

theorem at3_arg2 : W3 m ρ c (Proc.devRef .tc main_arg2) = (m ((c : Thread nD τ).loc main_arg2)) := by
  have e0 := w2_arg2 m ρ c
  show StableHlo.after hostOps0_2 (W2 m ρ c) (Proc.devRef .tc main_arg2) = _
  generalize W2 m ρ c = W at e0 ⊢
  after_results_simp
  exact e0

theorem at3_arg3 : W3 m ρ c (Proc.devRef .tc main_arg3) = (m ((c : Thread nD τ).loc main_arg3)) := by
  have e0 := w2_arg3 m ρ c
  show StableHlo.after hostOps0_2 (W2 m ρ c) (Proc.devRef .tc main_arg3) = _
  generalize W2 m ρ c = W at e0 ⊢
  after_results_simp
  exact e0

theorem at3_arg4 : W3 m ρ c (Proc.devRef .tc main_arg4) = (m ((c : Thread nD τ).loc main_arg4)) := by
  have e0 := w2_arg4 m ρ c
  show StableHlo.after hostOps0_2 (W2 m ρ c) (Proc.devRef .tc main_arg4) = _
  generalize W2 m ρ c = W at e0 ⊢
  after_results_simp
  exact e0

theorem at3_arg5 : W3 m ρ c (Proc.devRef .tc main_arg5) = (m ((c : Thread nD τ).loc main_arg5)) := by
  have e0 := w2_arg5 m ρ c
  show StableHlo.after hostOps0_2 (W2 m ρ c) (Proc.devRef .tc main_arg5) = _
  generalize W2 m ρ c = W at e0 ⊢
  after_results_simp
  exact e0

/-! ## After the first pallas_call -/

/-- The first call's result: the product of the features and the first weights, the reference's first dot_general. -/
theorem at4_v30 : W4 m ρ c (Proc.devRef .tc main_v30) = Cert.ReferenceIdeal.Read.val_main_v30 (F := Ideal) (m ((c : Thread nD τ).loc main_arg0)) (m ((c : Thread nD τ).loc main_arg2)) := by
  refine (W4_arr m ρ c 2).trans ((Cert.KernelIdeal.FirstProduct.result (V3 m ρ) c).trans ?_)
  rw [show V3 m ρ c main_arg0 = (m ((c : Thread nD τ).loc main_arg0)) from at3_arg0 m ρ c, show V3 m ρ c main_arg2 = (m ((c : Thread nD τ).loc main_arg2)) from at3_arg2 m ρ c]
  exact Cert.StageFunctions.firstProduct_eq _ _

theorem at4_v5 : W4 m ρ c (Proc.devRef .tc main_v5) = Cert.ReferenceIdeal.Read.val_main_v5 (F := Ideal) (m ((c : Thread nD τ).loc main_arg1)) :=
  (W4_of_ne m ρ c main_v5 (by decide)).trans (at3_v5 m ρ c)

theorem at4_v6 : W4 m ρ c (Proc.devRef .tc main_v6) = Cert.ReferenceIdeal.Read.val_main_v6 (F := Ideal) (m ((c : Thread nD τ).loc main_arg1)) :=
  (W4_of_ne m ρ c main_v6 (by decide)).trans (at3_v6 m ρ c)

theorem at4_v29 : W4 m ρ c (Proc.devRef .tc main_v29) = Cert.ReferenceIdeal.Read.val_main_v29 (F := Ideal) (m ((c : Thread nD τ).loc main_arg1)) :=
  (W4_of_ne m ρ c main_v29 (by decide)).trans (at3_v29 m ρ c)

theorem at4_arg3 : W4 m ρ c (Proc.devRef .tc main_arg3) = (m ((c : Thread nD τ).loc main_arg3)) :=
  (W4_of_ne m ρ c main_arg3 (by decide)).trans (at3_arg3 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

/-! ## When the second pallas_call starts -/

/-- The first layer's aggregation: the reference's scatter-add of the gathered, weighted rows of its first dot_general. -/
theorem at5_v43 : W5 m ρ c (Proc.devRef .tc main_v43) = Cert.ReferenceIdeal.Read.val_main_v43 (F := Ideal) (m ((c : Thread nD τ).loc main_arg0)) (m ((c : Thread nD τ).loc main_arg1)) (m ((c : Thread nD τ).loc main_arg2)) := by
  have e0 := at4_v30 m ρ c
  have e1 := at4_v5 m ρ c
  have e2 := at4_v6 m ρ c
  have e3 := at4_v29 m ρ c
  show StableHlo.after hostOps1 (W4 m ρ c) (Proc.devRef .tc main_v43) = _
  generalize W4 m ρ c = W at e0 e1 e2 e3 ⊢
  after_results_simp
  rw [e0, e1, e2, e3]
  rfl

/-- The first bias as a row. -/
theorem at5_v44 : W5 m ρ c (Proc.devRef .tc main_v44) = shapeCast S1x64 (m ((c : Thread nD τ).loc main_arg3)) Facts₀.shapeCasts_S64_S1x64 := by
  have e0 := at4_arg3 m ρ c
  show StableHlo.after hostOps1 (W4 m ρ c) (Proc.devRef .tc main_v44) = _
  generalize W4 m ρ c = W at e0 ⊢
  after_results_simp
  rw [e0]
  rfl

theorem at5_v5 : W5 m ρ c (Proc.devRef .tc main_v5) = Cert.ReferenceIdeal.Read.val_main_v5 (F := Ideal) (m ((c : Thread nD τ).loc main_arg1)) := by
  have e0 := at4_v5 m ρ c
  show StableHlo.after hostOps1 (W4 m ρ c) (Proc.devRef .tc main_v5) = _
  generalize W4 m ρ c = W at e0 ⊢
  after_results_simp
  exact e0

theorem at5_v6 : W5 m ρ c (Proc.devRef .tc main_v6) = Cert.ReferenceIdeal.Read.val_main_v6 (F := Ideal) (m ((c : Thread nD τ).loc main_arg1)) := by
  have e0 := at4_v6 m ρ c
  show StableHlo.after hostOps1 (W4 m ρ c) (Proc.devRef .tc main_v6) = _
  generalize W4 m ρ c = W at e0 ⊢
  after_results_simp
  exact e0

theorem at5_v29 : W5 m ρ c (Proc.devRef .tc main_v29) = Cert.ReferenceIdeal.Read.val_main_v29 (F := Ideal) (m ((c : Thread nD τ).loc main_arg1)) := by
  have e0 := at4_v29 m ρ c
  show StableHlo.after hostOps1 (W4 m ρ c) (Proc.devRef .tc main_v29) = _
  generalize W4 m ρ c = W at e0 ⊢
  after_results_simp
  exact e0

theorem at5_arg4 : W5 m ρ c (Proc.devRef .tc main_arg4) = (m ((c : Thread nD τ).loc main_arg4)) := by
  have e0 := at4_arg4 m ρ c
  show StableHlo.after hostOps1 (W4 m ρ c) (Proc.devRef .tc main_arg4) = _
  generalize W4 m ρ c = W at e0 ⊢
  after_results_simp
  exact e0

theorem at5_arg5 : W5 m ρ c (Proc.devRef .tc main_arg5) = (m ((c : Thread nD τ).loc main_arg5)) := by
  have e0 := at4_arg5 m ρ c
  show StableHlo.after hostOps1 (W4 m ρ c) (Proc.devRef .tc main_arg5) = _
  generalize W4 m ρ c = W at e0 ⊢
  after_results_simp
  exact e0

end Cert.KernelIdeal.FirstLayer

end
-- ==== Proof.LibRealValued.lean ====
/-
  Extended reals that are real numbers.

  The arithmetic of the extended reals is the arithmetic of the reals away from the infinities: sums, products and
  maxima of real values are real values, and so is a finite sum of them.  One law of subtraction that fails at the
  infinities holds as soon as the MIDDLE term is real: `a - (b + c) = (a - b) - c`.  It is the law that turns a
  log-softmax written `x - (m + log s)` into the one written `(x - m) - log s`.
-/
import Idealize.ShloMosaic.PureOps.Ideal

open scoped BigOperators

namespace Cert.RealValued

/-- An extended real that is the image of a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.one : IsReal 1 := ⟨1, rfl⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_of_ne {x : EReal} (hb : x ≠ ⊥) (ht : x ≠ ⊤) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.max {x y : EReal} (hx : IsReal x) (hy : IsReal y) : IsReal (max x y) := by
  rcases le_total x y with h | h
  · rw [max_eq_right h]; exact hy
  · rw [max_eq_left h]; exact hx

theorem IsReal.ite {p : Prop} [Decidable p] {x y : EReal} (hx : IsReal x) (hy : IsReal y) : IsReal (if p then x else y) := by
  split
  · exact hx
  · exact hy

/-- A finite sum of real values is a real value. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The maximum of real values over a nonempty finite family, folded from the bottom element, is a real value. -/
theorem IsReal.fold_max {ι : Type*} (s : Finset ι) (f : ι → EReal) (hs : s.Nonempty) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    induction t using Finset.induction_on with
    | empty => intro _; exact Or.inl ⟨rfl, Finset.fold_empty⟩
    | insert a t ha ih =>
      intro ht
      rw [Finset.fold_insert ha]
      rcases ih (fun i hi => ht i (Finset.mem_insert_of_mem hi)) with ⟨_, e⟩ | hr
      · rw [e, max_bot_right]; exact Or.inr (ht a (Finset.mem_insert_self a t))
      · exact Or.inr ((ht a (Finset.mem_insert_self a t)).max hr)
  rcases key s h with ⟨e, _⟩ | hr
  · exact absurd e hs.ne_empty
  · exact hr

/-- Subtracting a sum whose first term is real: the subtraction distributes. -/
theorem sub_add_eq_sub_sub_of_isReal (a c : EReal) {b : EReal} (hb : IsReal b) : a - (b + c) = a - b - c := by
  rw [sub_eq_add_neg, sub_eq_add_neg, sub_eq_add_neg, EReal.neg_add (Or.inl hb.ne_bot) (Or.inl hb.ne_top), sub_eq_add_neg,
    add_assoc]

end Cert.RealValued
-- ==== Proof.LibRowLogSoftmax.lean ====
/-
  A row's log-softmax, written two ways.

  For a row `v` of extended reals let `M` be its maximum (folded from the bottom element) and
  `S = Σ_k exp (v k - M)`.  One program computes `v q - (M + log S)`, the other `(v q - M) - log S`.  On the
  extended reals the two differ when `M` is infinite (at `M = +∞` the first is `+∞` where `v q = +∞`, the second
  `-∞`), and agree as soon as `M` is a real number — which it is when the row is nonempty and all its entries are.
-/
import proofs.«104228_j82592221102830_1_alg».proof.Proof.LibRealValued

noncomputable section

open scoped BigOperators

namespace Cert.RowLogSoftmax

open Cert.RealValued Idealize.ShloMosaic

/-- The maximum of a row, folded from the bottom element. -/
def rowMax {n : ℕ} (v : Fin n → EReal) : EReal := (Finset.univ : Finset (Fin n)).fold Max.max ⊥ v

/-- The sum of the exponentials of a row shifted by its maximum. -/
def shiftedExpSum {n : ℕ} (v : Fin n → EReal) : EReal := ∑ k : Fin n, Ideal.exp (v k - rowMax v)

/-- Subtract the sum `M + log S` from the entry. -/
def subtractLogSumExp {n : ℕ} (v : Fin n → EReal) (q : Fin n) : EReal := v q - (rowMax v + Ideal.log (shiftedExpSum v))

/-- Shift the entry by `M`, then subtract `log S`. -/
def shiftThenSubtract {n : ℕ} (v : Fin n → EReal) (q : Fin n) : EReal := (v q - rowMax v) - Ideal.log (shiftedExpSum v)

/-- The pattern of minus infinity denotes the bottom element. -/
theorem ofBits_negInf : Ideal.ofBits .f32 0xFF800000#32 = ⊥ := by simp [Ideal.ofBits, Ideal.ieee]

/-- The maximum of a nonempty row of real values is a real value. -/
theorem rowMax_isReal {n : ℕ} (hn : 0 < n) (v : Fin n → EReal) (hv : ∀ k, IsReal (v k)) : IsReal (rowMax v) :=
  IsReal.fold_max Finset.univ v ⟨⟨0, hn⟩, Finset.mem_univ _⟩ fun k _ => hv k

/-- On a nonempty row of real values the two ways of writing the log-softmax agree. -/
theorem subtractLogSumExp_eq_shiftThenSubtract {n : ℕ} (hn : 0 < n) (v : Fin n → EReal) (hv : ∀ k, IsReal (v k)) (q : Fin n) :
    subtractLogSumExp v q = shiftThenSubtract v q :=
  sub_add_eq_sub_sub_of_isReal (v q) (Ideal.log (shiftedExpSum v)) (rowMax_isReal hn v hv)

end Cert.RowLogSoftmax

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.BiasLogSoftmax.lean ====
/-
  The bias and the log-softmax of the second layer: what the last pallas_call leaves in the result array.

  Ten blocks of 10000 rows of the aggregated features (100000 x 40) each get the bias row (1 x 40) added to every row;
  then, row by row, with `M` the row's maximum and `S` the sum of the exponentials of the row shifted by `M`, every
  entry `x` of the row becomes `x - (M + log S)`.  A row's maximum and sum involve that row only, so block `t` of
  the result is rows `10000 t …` of ONE function of the two arrays the call reads.
-/
import proofs.«104228_j82592221102830_1_alg».proof.Proof.Gen.KernelIdeal.Frame
import proofs.«104228_j82592221102830_1_alg».proof.Proof.LibRowLogSoftmax
import proofs.«104228_j82592221102830_1_alg».proof.Proof.LibKeepdims
import proofs.«104228_j82592221102830_1_alg».proof.Proof.LibColumnCasts
import Idealize.ShloMosaic.Lib.ValueLayout
import Idealize.ShloMosaic.PureOps.Ideal.Laws
import Idealize.ShloMosaic.Lib.Pipeline.Value
import Idealize.ShloMosaic.Lib.ValueIdx

set_option maxRecDepth 16384

noncomputable section

namespace Cert.KernelIdeal.BiasLogSoftmax

open Cert.KernelIdeal Cert.KernelIdeal.Gen Idealize.ShloMosaic Idealize.ShloMosaic.TcCoe Idealize.ShloMosaic.ValueIdx Idealize.SL.Sem
open Idealize.ShloMosaic.Pipeline (Dat)
open scoped BigOperators

open Cert.RowLogSoftmax

/-- Add the bias row to every row, then take each row's log-softmax in the form `x - (M + log S)`. -/
def biasLogSoftmax (a : S100000x40.Idx → EReal) (b : S1x40.Idx → EReal) : S100000x40.Idx → EReal :=
  fun i => subtractLogSumExp (fun k : Fin 40 => a (ix2 (n0 := 100000) (i 0) k) + b (ix2 (0 : Fin 1) k)) (i 1)

/-- A block's row maxima: at row `p`, the maximum of that row folded from the bottom element. -/
theorem rowMax_apply (v : FVec Ideal S10000x40 .f32) (h : S10000x40.Reduces [1] S10000) (hφ : FKind.Formats .f32)
    (hacc : (0xFF800000#32 : BitVec 32) = 0xFF800000#32) (p : Fin 10000) :
    multiReduction .maximumf [1] S10000 v 0xFF800000#32 h hφ hacc (ix1 p) = rowMax (fun k : Fin 40 => v (ix2 p k)) := by
  refine (Ideal.multiReduction_maximumf_single v 0xFF800000#32 h hφ hacc (ix1 p)).trans ?_
  show (Finset.univ : Finset (Fin 40)).fold max (Ideal.ofBits .f32 0xFF800000#32) _ = _
  rw [ofBits_negInf]
  unfold rowMax
  refine congrArg (fun f => (Finset.univ : Finset (Fin 40)).fold max ⊥ f) (funext fun k => ?_)
  refine congrArg v (funext fun d => Fin.ext ?_)
  match d with
  | ⟨0, _⟩ => rfl
  | ⟨1, _⟩ => rfl

/-- A block's rows at an entry, from the block with the bias already added: with `M` the row's maximum and `S` the sum
    of the exponentials of the row shifted by `M`, the entry minus `M + log S`. -/
theorem rows_apply (v : FVec Ideal S10000x40 .f32) (h : S10000x40.Reduces [1] S10000) (hφ : FKind.Formats .f32)
    (hmax : (0xFF800000#32 : BitVec 32) = 0xFF800000#32) (hadd : (0x00000000#32 : BitVec 32) = 0x00000000#32)
    (hc : S10000.ShapeCasts S10000x1) (hb : S10000x1.Broadcasts S10000x40) (p : Fin 10000) (q : Fin 40) :
    subf v (broadcastTo S10000x40
        (addf (shapeCast S10000x1 (multiReduction .maximumf [1] S10000 v 0xFF800000#32 h hφ hmax) hc)
          (log (shapeCast S10000x1 (multiReduction .add [1] S10000
            (exp (subf v (broadcastTo S10000x40 (shapeCast S10000x1 (multiReduction .maximumf [1] S10000 v 0xFF800000#32 h hφ hmax) hc) hb)))
            0x00000000#32 h hφ hadd) hc)))
        hb) (ix2 p q)
      = subtractLogSumExp (fun k : Fin 40 => v (ix2 p k)) q := by
  have hM : ∀ u : Fin 1, shapeCast S10000x1 (multiReduction .maximumf [1] S10000 v 0xFF800000#32 h hφ hmax) hc (ix2 p u)
      = rowMax (fun k : Fin 40 => v (ix2 p k)) := fun u =>
    (Cert.Keepdims.shapeCast_a_a1_apply _ hc p u).trans (rowMax_apply v h hφ hmax p)
  have hE : ∀ k : Fin 40, exp (subf v (broadcastTo S10000x40 (shapeCast S10000x1 (multiReduction .maximumf [1] S10000 v 0xFF800000#32 h hφ hmax) hc) hb)) (ix2 p k)
      = Ideal.exp (v (ix2 p k) - rowMax (fun k : Fin 40 => v (ix2 p k))) := fun k => by
    show Ideal.exp (v (ix2 p k) - broadcastTo S10000x40 _ hb (ix2 p k)) = _
    rw [Cert.Keepdims.broadcastTo_a1_ab_apply, hM]
  have hS : shapeCast S10000x1 (multiReduction .add [1] S10000
      (exp (subf v (broadcastTo S10000x40 (shapeCast S10000x1 (multiReduction .maximumf [1] S10000 v 0xFF800000#32 h hφ hmax) hc) hb)))
      0x00000000#32 h hφ hadd) hc (ix2 p (0 : Fin 1)) = shiftedExpSum (fun k : Fin 40 => v (ix2 p k)) :=
    (Cert.Keepdims.shapeCast_a_a1_apply _ hc p 0).trans
      ((Cert.ColumnCasts.rowSum_apply _ h hφ hadd p).trans (Finset.sum_congr rfl fun k _ => hE k))
  show v (ix2 p q) - broadcastTo S10000x40 _ hb (ix2 p q) = _
  rw [Cert.Keepdims.broadcastTo_a1_ab_apply]
  show v (ix2 p q) - (shapeCast S10000x1 _ hc (ix2 p (0 : Fin 1)) + Ideal.log (shapeCast S10000x1 _ hc (ix2 p (0 : Fin 1)))) = _
  rw [hM, hS]
  rfl

/-- One block at an entry. -/
theorem block_apply (x0 : Vec Ideal S10000x40 .f32) (x1 : Vec Ideal S1x40 .f32) (p : Fin 10000) (q : Fin 40) :
    k3_pay1 (F := Ideal) x0 x1 (ix2 p q) = subtractLogSumExp (fun k : Fin 40 => x0 (ix2 p k) + x1 (ix2 (0 : Fin 1) k)) q := by
  have key := rows_apply (addf (shapeCast S10000x40 x0 Facts₀.shapeCasts_S10000x40_S10000x40)
    (broadcastTo S10000x40 (shapeCast S1x40 x1 Facts₀.shapeCasts_S1x40_S1x40) Facts₀.broadcasts_S1x40_S10000x40))
    Facts₀.reduces_S10000x40_S10000 (.inl rfl) rfl rfl Facts₀.shapeCasts_S10000_S10000x1 Facts₀.broadcasts_S10000x1_S10000x40 p q
  refine (show k3_pay1 (F := Ideal) x0 x1 (ix2 p q) = _ from key).trans ?_
  refine congrArg (fun f => subtractLogSumExp f q) (funext fun k => ?_)
  show shapeCast S10000x40 x0 _ (ix2 p k) + broadcastTo S10000x40 (shapeCast S1x40 x1 _) _ (ix2 p k) = _
  rw [shapeCast_self, shapeCast_self, broadcastTo_1b_ab_apply]

theorem zeroStart : (![0, 0] : Fin 2 → Nat) = fun _ => 0 := funext fun a => by fin_cases a <;> rfl

/-- Every row block of the result is some grid point's. -/
theorem blockOnto : ∀ q0 : Fin 10, ∃ t : Fin cfg3.N, win3_2.index t = ![q0.val, 0] :=
  (by decide +kernel : ∀ q0 : Fin 10, ∃ t : Fin grid3.N, win3_2.index t = ![q0.val, 0])

/-- Where each window's block sits at grid point `t`: the first operand and the result at row block `t`, the second operand whole. -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What grid point `t` writes back is block `t` of that function of the two arrays as the call finds them. -/
theorem flushed_eq (c : Dev nD) (t : Fin cfg3.N) :
    (dat3 V c).flushed 2 t = ((cfg3.win 2).blk t).view.read (Elt Ideal) (biasLogSoftmax (V c main_v59) (V c main_v60)) := by
  show (cfg3.win 2).cut (grid3.coords t) ((dat3 V c).after 2 t) = _
  rw [after3_2]
  unfold out3_2
  rw [View.canon_unit_zero zeroStart]
  simp only [View.ld_unit_zero (S := S10000x40) zeroStart, View.ld_unit_zero (S := S1x40) zeroStart]
  obtain ⟨e0, e1, e2, e3, e4, e5⟩ := blockIndex t
  funext j
  obtain ⟨p, q, rfl⟩ : ∃ (p : Fin 10000) (q : Fin 40), j = ix2 p q := ⟨j 0, j 1, eq_ix2 j⟩
  refine (block_apply (iblk3 V c 0 t) (iblk3 V c 1 t) p q).trans ?_
  have ht : t.val < 10 := lt_of_lt_of_eq t.isLt N_3
  have hp : p.val < 10000 := p.isLt
  -- the block's row `p` is row `10000 t + p` of the array
  have hemb : ((cfg3.win 2).blk t).view.emb (ix2 p q) = ix2 (n0 := 100000) (n1 := 40) ⟨t.val * 10000 + p.val, by omega⟩ q := by
    funext a; apply Fin.ext
    match a with
    | ⟨0, _⟩ => show win3_2.index t (0 : Fin 2) * 10000 + 1 * p.val = t.val * 10000 + p.val; omega
    | ⟨1, _⟩ => show win3_2.index t (1 : Fin 2) * 40 + 1 * q.val = q.val; omega
  show _ = biasLogSoftmax (V c main_v59) (V c main_v60) (((cfg3.win 2).blk t).view.emb (ix2 p q))
  rw [hemb]
  unfold biasLogSoftmax
  refine congrArg (fun f => subtractLogSumExp f q) (funext fun k => ?_)
  refine congrArg₂ (fun x y : EReal => x + y) ?_ ?_
  · refine congrArg (V c main_v59) ?_
    funext a; apply Fin.ext
    match a with
    | ⟨0, _⟩ => show win3_0.index t (0 : Fin 2) * 10000 + 1 * p.val = t.val * 10000 + p.val; omega
    | ⟨1, _⟩ => show win3_0.index t (1 : Fin 2) * 40 + 1 * k.val = k.val; omega
  · refine congrArg (V c main_v60) ?_
    funext a; apply Fin.ext
    match a with
    | ⟨0, _⟩ => show win3_1.index t (0 : Fin 2) * 1 + 1 * 0 = 0; omega
    | ⟨1, _⟩ => show win3_1.index t (1 : Fin 2) * 40 + 1 * k.val = k.val; omega

/-- An index of the result is in point `t`'s block iff each coordinate is in the block's range on its axis. -/
theorem mem_block (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v61).slice (win3_2.rect t)).set ↔ _
  rw [View.set_slice_whole, Rect.mem_set_unit]
  exact Iff.rfl

/-- The ten row blocks cover the result: row `r` is in block `r / 10000`. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := blockOnto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 40 ≤ (i 1).val ∧ (i 1).val < win3_2.index t (1 : Fin 2) * 40 + 40; omega

/-- The result array after the call, as one function of the two arrays the call reads. -/
theorem result (c : Dev nD) : (dat3 V c).arrAt 2 cfg3.N = biasLogSoftmax (V c main_v59) (V c main_v60) :=
  (dat3 V c).arrAt_eq_of_cover 2 (biasLogSoftmax (V c main_v59) (V c main_v60)) (fun t _ => flushed_eq V c t) cover

end Cert.KernelIdeal.BiasLogSoftmax

end
-- ==== Proof.SecondLayer.lean ====
/-
  The kernel's buffers from the second pallas_call on, as functions of the six arguments.

  The second call adds the first bias and clips at zero: the reference's hidden features.  The third call multiplies
  them by the second weights: the reference's second dot_general.  The host gathers, weighs and sums as in the first
  layer, with the source and destination lists and the edge weights it computed once (the reference computes them
  again for its second layer: the same functions of the edge list), and reshapes the second bias to a row.  The last
  call's result is the bias and the row-wise log-softmax of that aggregation.
-/
import proofs.«104228_j82592221102830_1_alg».proof.Proof.FirstLayer
import proofs.«104228_j82592221102830_1_alg».proof.Proof.BiasLogSoftmax
import Idealize.ShloMosaic.Lib.StableHlo.Run

set_option maxRecDepth 65536

noncomputable section

namespace Cert.KernelIdeal.SecondLayer

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

open Cert.KernelIdeal.FirstLayer

/-- The second call's result: the reference's hidden features. -/
theorem at6_v45 : W6 m ρ c (Proc.devRef .tc main_v45) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Cert.KernelIdeal.BiasRelu.result (V5 m ρ) c).trans ?_)
  rw [show V5 m ρ c main_v43 = _ from at5_v43 m ρ c, show V5 m ρ c main_v44 = _ from at5_v44 m ρ c]
  exact Cert.StageFunctions.biasRelu_eq _ _ _ _ _

theorem at6_v5 : W6 m ρ c (Proc.devRef .tc main_v5) = Cert.ReferenceIdeal.Read.val_main_v5 (F := Ideal) (m ((c : Thread nD τ).loc main_arg1)) :=
  (W6_of_ne m ρ c main_v5 (by decide)).trans (at5_v5 m ρ c)

theorem at6_v6 : W6 m ρ c (Proc.devRef .tc main_v6) = Cert.ReferenceIdeal.Read.val_main_v6 (F := Ideal) (m ((c : Thread nD τ).loc main_arg1)) :=
  (W6_of_ne m ρ c main_v6 (by decide)).trans (at5_v6 m ρ c)

theorem at6_v29 : W6 m ρ c (Proc.devRef .tc main_v29) = Cert.ReferenceIdeal.Read.val_main_v29 (F := Ideal) (m ((c : Thread nD τ).loc main_arg1)) :=
  (W6_of_ne m ρ c main_v29 (by decide)).trans (at5_v29 m ρ c)

theorem at6_arg4 : W6 m ρ c (Proc.devRef .tc main_arg4) = (m ((c : Thread nD τ).loc main_arg4)) :=
  (W6_of_ne m ρ c main_arg4 (by decide)).trans (at5_arg4 m ρ c)

theorem at6_arg5 : W6 m ρ c (Proc.devRef .tc main_arg5) = (m ((c : Thread nD τ).loc main_arg5)) :=
  (W6_of_ne m ρ c main_arg5 (by decide)).trans (at5_arg5 m ρ c)

/-- The third call's result: the reference's second dot_general. -/
theorem at7_v46 : W7 m ρ c (Proc.devRef .tc main_v46) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Cert.KernelIdeal.SecondProduct.result (V6 m ρ) c).trans ?_)
  rw [show V6 m ρ c main_v45 = _ from at6_v45 m ρ c, show V6 m ρ c main_arg4 = _ from at6_arg4 m ρ c]
  exact Cert.StageFunctions.secondProduct_eq _ _ _ _ _

theorem at7_v5 : W7 m ρ c (Proc.devRef .tc main_v5) = Cert.ReferenceIdeal.Read.val_main_v5 (F := Ideal) (m ((c : Thread nD τ).loc main_arg1)) :=
  (W7_of_ne m ρ c main_v5 (by decide)).trans (at6_v5 m ρ c)

theorem at7_v6 : W7 m ρ c (Proc.devRef .tc main_v6) = Cert.ReferenceIdeal.Read.val_main_v6 (F := Ideal) (m ((c : Thread nD τ).loc main_arg1)) :=
  (W7_of_ne m ρ c main_v6 (by decide)).trans (at6_v6 m ρ c)

theorem at7_v29 : W7 m ρ c (Proc.devRef .tc main_v29) = Cert.ReferenceIdeal.Read.val_main_v29 (F := Ideal) (m ((c : Thread nD τ).loc main_arg1)) :=
  (W7_of_ne m ρ c main_v29 (by decide)).trans (at6_v29 m ρ c)

theorem at7_arg5 : W7 m ρ c (Proc.devRef .tc main_arg5) = (m ((c : Thread nD τ).loc main_arg5)) :=
  (W7_of_ne m ρ c main_arg5 (by decide)).trans (at6_arg5 m ρ c)

/-- The second layer's aggregation, when the last pallas_call starts: the reference's second scatter-add.  The
    reference's second layer recomputes the lists and the edge weights; they are the same functions of the edge list. -/
theorem at8_v59 : W8 m ρ c (Proc.devRef .tc main_v59) = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e0 := at7_v46 m ρ c
  have e1 := at7_v5 m ρ c
  have e2 := at7_v6 m ρ c
  have e3 := at7_v29 m ρ c
  show StableHlo.after hostOps3 (W7 m ρ c) (Proc.devRef .tc main_v59) = _
  generalize W7 m ρ c = W at e0 e1 e2 e3 ⊢
  after_results_simp
  rw [e0, e1, e2, e3]
  rfl

/-- The second bias as a row, when the last pallas_call starts. -/
theorem at8_v60 : W8 m ρ c (Proc.devRef .tc main_v60) = shapeCast S1x40 (m ((c : Thread nD τ).loc main_arg5)) Facts₀.shapeCasts_S40_S1x40 := by
  have e0 := at7_arg5 m ρ c
  show StableHlo.after hostOps3 (W7 m ρ c) (Proc.devRef .tc main_v60) = _
  generalize W7 m ρ c = W at e0 ⊢
  after_results_simp
  rw [e0]
  rfl

/-- THE RESULT after the last call: the second bias added to the reference's second aggregation, then each row's
    log-softmax in the form `x - (M + log S)`. -/
theorem at9_v61 : W9 m ρ c (Proc.devRef .tc main_v61)
    = Cert.KernelIdeal.BiasLogSoftmax.biasLogSoftmax (Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)))
        (shapeCast S1x40 (m ((c : Thread nD τ).loc main_arg5)) Facts₀.shapeCasts_S40_S1x40) := by
  refine (W9_arr m ρ c 2).trans ((Cert.KernelIdeal.BiasLogSoftmax.result (V8 m ρ) c).trans ?_)
  rw [show V8 m ρ c main_v59 = _ from at8_v59 m ρ c, show V8 m ρ c main_v60 = _ from at8_v60 m ρ c]

end Cert.KernelIdeal.SecondLayer

end
-- ==== Proof.LibRealArrays.lean ====
/-
  Arrays all of whose entries are real numbers, and the operations that keep them so.

  A gather and a broadcast only move entries; a scatter-add adds, to each entry, a finite sum of update entries; a
  matrix product is a finite sum of products; the pointwise sum, product and maximum of real entries are real.  None of
  this looks at WHERE an index list points: it holds for every index list.  One pointwise case uses the values: the
  inverse square root is taken only where its argument is positive, and there it is a real number.
-/
import proofs.«104228_j82592221102830_1_alg».proof.Proof.LibRealValued
import Idealize.ShloMosaic.PureOps.Ideal.Laws

noncomputable section

namespace Cert.RealArrays

open Idealize.ShloMosaic Cert.RealValued
open scoped BigOperators

/-- Every entry is a real number. -/
def AllReal {S : Shape} (v : S.Idx → EReal) : Prop := ∀ i, IsReal (v i)

theorem allReal_broadcastInDim {s t : Shape} (dims : Fin s.rank → Fin t.rank) (h : s.BroadcastsInDim t dims)
    (x : s.Idx → EReal) (hx : AllReal x) : AllReal (broadcastInDim t dims h x) := fun _ => hx _

theorem allReal_gather {s si t : Shape} {w : Nat} (d : GatherDims s si t) (x : s.Idx → EReal) (idx : IVec si w)
    (hx : AllReal x) : AllReal (Host.gather d x idx) := fun _ => hx _

theorem allReal_scatterAdd {s si su : Shape} {w : Nat} (d : ScatterDims s si su) (x : s.Idx → EReal) (idx : IVec si w)
    (u : su.Idx → EReal) (hx : AllReal x) (hu : AllReal u) :
    AllReal (Host.scatterAdd (F := Ideal) (φ := .f32) d x idx u) := fun i => by
  show IsReal (x i + ∑ j ∈ Finset.univ.filter (fun j => d.resultIdx? j idx = some i), u j)
  exact (hx i).add (IsReal.sum _ _ fun j _ => hu j)

theorem allReal_dotGeneral {sl sr so : Shape} (d : DotDims sl sr so) (prec : Option ContractPrecision)
    (x : sl.Idx → EReal) (y : sr.Idx → EReal) (hx : AllReal x) (hy : AllReal y) :
    AllReal (Host.dotGeneral (F := Ideal) (φ₁ := .f32) (φ₂ := .f32) d prec x y) := fun j => by
  simp only [Host.dotGeneral]
  rw [Ideal.dotGeneral_apply]
  exact IsReal.sum _ _ fun k _ => (hx _).mul (hy _)

theorem allReal_mulf {s : Shape} (x y : s.Idx → EReal) (hx : AllReal x) (hy : AllReal y) :
    AllReal (mulf (F := Ideal) (φ := .f32) x y) := fun i => (hx i).mul (hy i)

theorem allReal_addf {s : Shape} (x y : s.Idx → EReal) (hx : AllReal x) (hy : AllReal y) :
    AllReal (addf (F := Ideal) (φ := .f32) x y) := fun i => (hx i).add (hy i)

theorem allReal_maximumf {s : Shape} (x y : s.Idx → EReal) (hx : AllReal x) (hy : AllReal y) :
    AllReal (maximumf (F := Ideal) (φ := .f32) x y) := fun i => (hx i).max (hy i)

/-- A bit pattern whose exponent field is not all ones denotes a real number. -/
theorem isReal_ieee (e mant : Nat) {w : Nat} (b : BitVec w) (h : (b.extractLsb' mant e).toNat ≠ 2 ^ e - 1) :
    IsReal (Ideal.ieee e mant b) := by
  unfold Ideal.ieee
  simp only [if_neg h]
  split
  · exact ⟨_, rfl⟩
  · exact ⟨_, rfl⟩

/-- The patterns of zero and of one denote real numbers. -/
theorem isReal_zeroPattern : IsReal (Ideal.ofBits .f32 0x00000000#32) := by
  show IsReal (Ideal.ieee 8 23 (0x00000000#32 : BitVec 32))
  exact isReal_ieee 8 23 _ (by decide)
theorem isReal_onePattern : IsReal (Ideal.ofBits .f32 0x3F800000#32) := by
  show IsReal (Ideal.ieee 8 23 (0x3F800000#32 : BitVec 32))
  exact isReal_ieee 8 23 _ (by decide)

theorem allReal_constant {s : Shape} (b : BitVec 32) (hb : IsReal (Ideal.ofBits .f32 b)) :
    AllReal (constant (F := Ideal) s .f32 b) := fun _ => hb

/-- Where the argument is positive take its inverse square root, elsewhere the other value: a real number when the
    argument and the other value are. -/
theorem isReal_select_rsqrt (d z : EReal) (hd : IsReal d) (hz : IsReal z) :
    IsReal (Scalar.select (Ideal.cmp .ogt d (Ideal.ofBits .f32 0x00000000#32)) (Ideal.rsqrt d) z) := by
  obtain ⟨r, rfl⟩ := hd
  rw [Ideal.ofBits_zero_f32]
  unfold Scalar.select Ideal.cmp
  by_cases hr : (0 : EReal) < (r : EReal)
  · have hr' : 0 < r := EReal.coe_pos.mp hr
    simp only [hr, decide_true, BitVec.ofBool_true, if_true]
    rw [Ideal.rsqrt_coe, if_neg (not_lt.mpr hr'.le), if_neg hr'.ne']
    exact ⟨_, rfl⟩
  · simp only [hr, decide_false, BitVec.ofBool_false]
    rw [if_neg (by decide)]
    exact hz

end Cert.RealArrays

end
-- ==== Proof.ReferenceReal.lean ====
/-
  Under real inputs every stage of the reference is real-valued.

  The degrees are sums of ones; the edge weights are products of inverse square roots taken where the degree is
  positive; a layer is a matrix product, a gather, a product with the weights, a scatter-add and a bias; the first
  layer ends with a maximum with zero.  Each step keeps every entry a real number, whatever the edge list holds.
  So the array whose rows the final log-softmax normalises has only real entries.
-/
import proofs.«104228_j82592221102830_1_alg».proof.Proof.ReferenceRead
import proofs.«104228_j82592221102830_1_alg».proof.Proof.LibRealArrays

set_option maxRecDepth 65536

noncomputable section

namespace Cert.ReferenceReal

open Cert.ReferenceIdeal Cert.ReferenceIdeal.Read Idealize.ShloMosaic Cert.RealValued Cert.RealArrays

/-! ## The edge weights (computed once per layer by the reference: the same steps twice) -/

theorem real_v7   :
    AllReal (S := S1700000) (val_main_v7 (F := Ideal) ) :=
  allReal_broadcastInDim _ _ _ (allReal_constant _ isReal_onePattern)
theorem real_v8   :
    AllReal (S := S100000) (val_main_v8 (F := Ideal) ) :=
  allReal_broadcastInDim _ _ _ (allReal_constant _ isReal_zeroPattern)
/-- The degrees: zero plus a sum of ones. -/
theorem real_v10 (x1 : S2x1600000.Idx → BitVec 32)  :
    AllReal (S := S100000) (val_main_v10 (F := Ideal) x1) :=
  allReal_scatterAdd _ _ _ _ real_v8 real_v7
/-- Where the degree is positive its inverse square root, elsewhere zero: real numbers. -/
theorem real_v14 (x1 : S2x1600000.Idx → BitVec 32) : AllReal (S := S100000) (val_main_v14 (F := Ideal) x1) := fun i => by
  have hd := real_v10 x1 i
  rw [val_main_v14_apply, val_main_v12_apply, val_main_v13_apply]
  generalize val_main_v10 (F := Ideal) x1 i = deg at hd ⊢
  exact isReal_select_rsqrt deg _ hd isReal_zeroPattern
theorem real_v21 (x1 : S2x1600000.Idx → BitVec 32)  :
    AllReal (S := S1700000) (val_main_v21 (F := Ideal) x1) :=
  allReal_gather _ _ _ (real_v14 x1)
theorem real_v28 (x1 : S2x1600000.Idx → BitVec 32)  :
    AllReal (S := S1700000) (val_main_v28 (F := Ideal) x1) :=
  allReal_gather _ _ _ (real_v14 x1)
/-- The edge weights of the first layer. -/
theorem real_v29 (x1 : S2x1600000.Idx → BitVec 32)  :
    AllReal (S := S1700000) (val_main_v29 (F := Ideal) x1) :=
  allReal_mulf _ _ (real_v21 x1) (real_v28 x1)
theorem real_v55   :
    AllReal (S := S1700000) (val_main_v55 (F := Ideal) ) :=
  allReal_broadcastInDim _ _ _ (allReal_constant _ isReal_onePattern)
theorem real_v56   :
    AllReal (S := S100000) (val_main_v56 (F := Ideal) ) :=
  allReal_broadcastInDim _ _ _ (allReal_constant _ isReal_zeroPattern)
theorem real_v58 (x1 : S2x1600000.Idx → BitVec 32)  :
    AllReal (S := S100000) (val_main_v58 (F := Ideal) x1) :=
  allReal_scatterAdd _ _ _ _ real_v56 real_v55
/-- Where the degree is positive its inverse square root, elsewhere zero: real numbers. -/
theorem real_v62 (x1 : S2x1600000.Idx → BitVec 32) : AllReal (S := S100000) (val_main_v62 (F := Ideal) x1) := fun i => by
  have hd := real_v58 x1 i
  rw [val_main_v62_apply, val_main_v60_apply, val_main_v61_apply]
  generalize val_main_v58 (F := Ideal) x1 i = deg at hd ⊢
  exact isReal_select_rsqrt deg _ hd isReal_zeroPattern
theorem real_v69 (x1 : S2x1600000.Idx → BitVec 32)  :
    AllReal (S := S1700000) (val_main_v69 (F := Ideal) x1) :=
  allReal_gather _ _ _ (real_v62 x1)
theorem real_v76 (x1 : S2x1600000.Idx → BitVec 32)  :
    AllReal (S := S1700000) (val_main_v76 (F := Ideal) x1) :=
  allReal_gather _ _ _ (real_v62 x1)
/-- The edge weights of the second layer. -/
theorem real_v77 (x1 : S2x1600000.Idx → BitVec 32)  :
    AllReal (S := S1700000) (val_main_v77 (F := Ideal) x1) :=
  allReal_mulf _ _ (real_v69 x1) (real_v76 x1)

/-! ## The first layer -/

theorem real_v30 (x0 : S100000x128.Idx → EReal) (x2 : S128x64.Idx → EReal) (h0 : AllReal x0) (h2 : AllReal x2) :
    AllReal (S := S100000x64) (val_main_v30 (F := Ideal) x0 x2) :=
  allReal_dotGeneral _ _ _ _ h0 h2
theorem real_v37 (x0 : S100000x128.Idx → EReal) (x1 : S2x1600000.Idx → BitVec 32) (x2 : S128x64.Idx → EReal) (h0 : AllReal x0) (h2 : AllReal x2) :
    AllReal (S := S1700000x64) (val_main_v37 (F := Ideal) x0 x1 x2) :=
  allReal_gather _ _ _ (real_v30 x0 x2 h0 h2)
theorem real_v38 (x1 : S2x1600000.Idx → BitVec 32)  :
    AllReal (S := S1700000x1) (val_main_v38 (F := Ideal) x1) :=
  allReal_broadcastInDim _ _ _ (real_v29 x1)
theorem real_v39 (x1 : S2x1600000.Idx → BitVec 32)  :
    AllReal (S := S1700000x64) (val_main_v39 (F := Ideal) x1) :=
  allReal_broadcastInDim _ _ _ (real_v38 x1)
theorem real_v40 (x0 : S100000x128.Idx → EReal) (x1 : S2x1600000.Idx → BitVec 32) (x2 : S128x64.Idx → EReal) (h0 : AllReal x0) (h2 : AllReal x2) :
    AllReal (S := S1700000x64) (val_main_v40 (F := Ideal) x0 x1 x2) :=
  allReal_mulf _ _ (real_v37 x0 x1 x2 h0 h2) (real_v39 x1)
theorem real_v41   :
    AllReal (S := S100000x64) (val_main_v41 (F := Ideal) ) :=
  allReal_broadcastInDim _ _ _ (allReal_constant _ isReal_zeroPattern)
/-- The first aggregation. -/
theorem real_v43 (x0 : S100000x128.Idx → EReal) (x1 : S2x1600000.Idx → BitVec 32) (x2 : S128x64.Idx → EReal) (h0 : AllReal x0) (h2 : AllReal x2) :
    AllReal (S := S100000x64) (val_main_v43 (F := Ideal) x0 x1 x2) :=
  allReal_scatterAdd _ _ _ _ real_v41 (real_v40 x0 x1 x2 h0 h2)
theorem real_v44 (x3 : S64.Idx → EReal) (h3 : AllReal x3) :
    AllReal (S := S1x64) (val_main_v44 (F := Ideal) x3) :=
  allReal_broadcastInDim _ _ _ h3
theorem real_v45 (x3 : S64.Idx → EReal) (h3 : AllReal x3) :
    AllReal (S := S100000x64) (val_main_v45 (F := Ideal) x3) :=
  allReal_broadcastInDim _ _ _ (real_v44 x3 h3)
theorem real_v46 (x0 : S100000x128.Idx → EReal) (x1 : S2x1600000.Idx → BitVec 32) (x2 : S128x64.Idx → EReal) (x3 : S64.Idx → EReal) (h0 : AllReal x0) (h2 : AllReal x2) (h3 : AllReal x3) :
    AllReal (S := S100000x64) (val_main_v46 (F := Ideal) x0 x1 x2 x3) :=
  allReal_addf _ _ (real_v43 x0 x1 x2 h0 h2) (real_v45 x3 h3)
theorem real_call1_v0 : AllReal (S := S100000x64) (val_main_call1_v0 (F := Ideal)) :=
  allReal_broadcastInDim _ _ _ (allReal_constant _ isReal_zeroPattern)
/-- The hidden features. -/
theorem real_v47 (x0 : S100000x128.Idx → EReal) (x1 : S2x1600000.Idx → BitVec 32) (x2 : S128x64.Idx → EReal) (x3 : S64.Idx → EReal) (h0 : AllReal x0) (h2 : AllReal x2) (h3 : AllReal x3) :
    AllReal (S := S100000x64) (val_main_v47 (F := Ideal) x0 x1 x2 x3) :=
  allReal_maximumf _ _ (real_v46 x0 x1 x2 x3 h0 h2 h3) real_call1_v0

/-! ## The second layer -/

theorem real_v78 (x0 : S100000x128.Idx → EReal) (x1 : S2x1600000.Idx → BitVec 32) (x2 : S128x64.Idx → EReal) (x3 : S64.Idx → EReal) (x4 : S64x40.Idx → EReal) (h0 : AllReal x0) (h2 : AllReal x2) (h3 : AllReal x3) (h4 : AllReal x4) :
    AllReal (S := S100000x40) (val_main_v78 (F := Ideal) x0 x1 x2 x3 x4) :=
  allReal_dotGeneral _ _ _ _ (real_v47 x0 x1 x2 x3 h0 h2 h3) h4
theorem real_v85 (x0 : S100000x128.Idx → EReal) (x1 : S2x1600000.Idx → BitVec 32) (x2 : S128x64.Idx → EReal) (x3 : S64.Idx → EReal) (x4 : S64x40.Idx → EReal) (h0 : AllReal x0) (h2 : AllReal x2) (h3 : AllReal x3) (h4 : AllReal x4) :
    AllReal (S := S1700000x40) (val_main_v85 (F := Ideal) x0 x1 x2 x3 x4) :=
  allReal_gather _ _ _ (real_v78 x0 x1 x2 x3 x4 h0 h2 h3 h4)
theorem real_v86 (x1 : S2x1600000.Idx → BitVec 32)  :
    AllReal (S := S1700000x1) (val_main_v86 (F := Ideal) x1) :=
  allReal_broadcastInDim _ _ _ (real_v77 x1)
theorem real_v87 (x1 : S2x1600000.Idx → BitVec 32)  :
    AllReal (S := S1700000x40) (val_main_v87 (F := Ideal) x1) :=
  allReal_broadcastInDim _ _ _ (real_v86 x1)
theorem real_v88 (x0 : S100000x128.Idx → EReal) (x1 : S2x1600000.Idx → BitVec 32) (x2 : S128x64.Idx → EReal) (x3 : S64.Idx → EReal) (x4 : S64x40.Idx → EReal) (h0 : AllReal x0) (h2 : AllReal x2) (h3 : AllReal x3) (h4 : AllReal x4) :
    AllReal (S := S1700000x40) (val_main_v88 (F := Ideal) x0 x1 x2 x3 x4) :=
  allReal_mulf _ _ (real_v85 x0 x1 x2 x3 x4 h0 h2 h3 h4) (real_v87 x1)
theorem real_v89   :
    AllReal (S := S100000x40) (val_main_v89 (F := Ideal) ) :=
  allReal_broadcastInDim _ _ _ (allReal_constant _ isReal_zeroPattern)
/-- The second aggregation. -/
theorem real_v91 (x0 : S100000x128.Idx → EReal) (x1 : S2x1600000.Idx → BitVec 32) (x2 : S128x64.Idx → EReal) (x3 : S64.Idx → EReal) (x4 : S64x40.Idx → EReal) (h0 : AllReal x0) (h2 : AllReal x2) (h3 : AllReal x3) (h4 : AllReal x4) :
    AllReal (S := S100000x40) (val_main_v91 (F := Ideal) x0 x1 x2 x3 x4) :=
  allReal_scatterAdd _ _ _ _ real_v89 (real_v88 x0 x1 x2 x3 x4 h0 h2 h3 h4)
theorem real_v92 (x5 : S40.Idx → EReal) (h5 : AllReal x5) :
    AllReal (S := S1x40) (val_main_v92 (F := Ideal) x5) :=
  allReal_broadcastInDim _ _ _ h5
theorem real_v93 (x5 : S40.Idx → EReal) (h5 : AllReal x5) :
    AllReal (S := S100000x40) (val_main_v93 (F := Ideal) x5) :=
  allReal_broadcastInDim _ _ _ (real_v92 x5 h5)
/-- The array whose rows the log-softmax normalises. -/
theorem real_v94 (x0 : S100000x128.Idx → EReal) (x1 : S2x1600000.Idx → BitVec 32) (x2 : S128x64.Idx → EReal) (x3 : S64.Idx → EReal) (x4 : S64x40.Idx → EReal) (x5 : S40.Idx → EReal) (h0 : AllReal x0) (h2 : AllReal x2) (h3 : AllReal x3) (h4 : AllReal x4) (h5 : AllReal x5) :
    AllReal (S := S100000x40) (val_main_v94 (F := Ideal) x0 x1 x2 x3 x4 x5) :=
  allReal_addf _ _ (real_v91 x0 x1 x2 x3 x4 h0 h2 h3 h4) (real_v93 x5 h5)

end Cert.ReferenceReal

end
-- ==== Proof.ReferenceLogSoftmax.lean ====
/-
  The reference's last step, read at an entry.

  The reference normalises each row of the biased second aggregation: with `M` the row's maximum (taken once more
  against minus infinity, which changes nothing) and `S` the sum, started from zero, of the exponentials of the row
  shifted by `M`, entry `x` becomes `(x - M) - log S`.
-/
import proofs.«104228_j82592221102830_1_alg».proof.Proof.ReferenceRead
import proofs.«104228_j82592221102830_1_alg».proof.Proof.LibRowLogSoftmax
import Idealize.ShloMosaic.Lib.ValueIdx
import Idealize.ShloMosaic.PureOps.Ideal.Laws

noncomputable section

namespace Cert.ReferenceLogSoftmax

open Idealize.ShloMosaic Idealize.ShloMosaic.ValueIdx Cert.RealValued Cert.RowLogSoftmax
open scoped BigOperators

/-- The reference's row maximum, taken once more against minus infinity, is the row's maximum. -/
theorem ref_rowMax (x0 : Cert.ReferenceIdeal.S100000x128.Idx → EReal) (x1 : Cert.ReferenceIdeal.S2x1600000.Idx → BitVec 32) (x2 : Cert.ReferenceIdeal.S128x64.Idx → EReal)
    (x3 : Cert.ReferenceIdeal.S64.Idx → EReal) (x4 : Cert.ReferenceIdeal.S64x40.Idx → EReal) (x5 : Cert.ReferenceIdeal.S40.Idx → EReal) (n : Fin 100000) :
    Cert.ReferenceIdeal.Read.val_main_call3_v2 (F := Ideal) x0 x1 x2 x3 x4 x5 (ix1 n) = rowMax (fun k : Fin 40 => Cert.ReferenceIdeal.Read.val_main_v94 (F := Ideal) x0 x1 x2 x3 x4 x5 (ix2 n k)) := by
  rw [Cert.ReferenceIdeal.Read.val_main_call3_v2_apply, Cert.ReferenceIdeal.Read.val_main_call3_v1_apply, Cert.ReferenceIdeal.Read.val_main_call3_cst_0_apply]
  show max (Ideal.ofBits .f32 0xFF800000#32) (Cert.ReferenceIdeal.Read.val_main_call3_v0 (F := Ideal) x0 x1 x2 x3 x4 x5 (ix1 n)) = _
  rw [ofBits_negInf, max_bot_left]
  unfold Cert.ReferenceIdeal.Read.val_main_call3_v0
  rw [Host.reduce_eq_fold_single FloatOps.maximumf _ _ _ (by decide : Cert.ReferenceIdeal.S100000x40.Reduces [1] Cert.ReferenceIdeal.S100000) _ (ix1 n)]
  show (Finset.univ : Finset (Fin 40)).fold max (Ideal.ofBits .f32 0xFF800000#32) _ = _
  rw [ofBits_negInf]
  unfold rowMax
  refine congrArg (fun f => (Finset.univ : Finset (Fin 40)).fold max ⊥ f) (funext fun k => ?_)
  rw [Function.comp_apply]
  refine congrArg (Cert.ReferenceIdeal.Read.val_main_v94 (F := Ideal) x0 x1 x2 x3 x4 x5) (funext fun d => Fin.ext ?_)
  match d with
  | ⟨0, _⟩ => rfl
  | ⟨1, _⟩ => rfl

/-- The reference's result at an entry: shift the entry by the row's maximum, then subtract the logarithm of the sum. -/
theorem ref_apply (x0 : Cert.ReferenceIdeal.S100000x128.Idx → EReal) (x1 : Cert.ReferenceIdeal.S2x1600000.Idx → BitVec 32) (x2 : Cert.ReferenceIdeal.S128x64.Idx → EReal)
    (x3 : Cert.ReferenceIdeal.S64.Idx → EReal) (x4 : Cert.ReferenceIdeal.S64x40.Idx → EReal) (x5 : Cert.ReferenceIdeal.S40.Idx → EReal) (n : Fin 100000) (j : Fin 40) :
    Cert.ReferenceIdeal.Read.val_main_v95 (F := Ideal) x0 x1 x2 x3 x4 x5 (ix2 n j)
      = shiftThenSubtract (fun k : Fin 40 => Cert.ReferenceIdeal.Read.val_main_v94 (F := Ideal) x0 x1 x2 x3 x4 x5 (ix2 n k)) j := by
  have e1 : ∀ k : Fin 40, Cert.ReferenceIdeal.Read.idx_main_call3_v3 (Cert.ReferenceIdeal.Read.idx_main_call3_v4 (ix2 n k)) = ix1 n :=
    fun k => funext fun a => by match a with | ⟨0, _⟩ => rfl
  have e2 : Cert.ReferenceIdeal.Read.idx_main_call3_v8 (Cert.ReferenceIdeal.Read.idx_main_call3_v10 (ix2 n j)) = ix1 n :=
    funext fun a => by match a with | ⟨0, _⟩ => rfl
  have e3 : ∀ k : Fin 40, Cert.ReferenceIdeal.Read.idx_main_call3_v7 (ix1 n) k = ix2 n k :=
    fun k => funext fun a => by match a with | ⟨0, _⟩ => rfl | ⟨1, _⟩ => rfl
  have shifted : ∀ k : Fin 40, Cert.ReferenceIdeal.Read.val_main_call3_v5 (F := Ideal) x0 x1 x2 x3 x4 x5 (ix2 n k)
      = Cert.ReferenceIdeal.Read.val_main_v94 (F := Ideal) x0 x1 x2 x3 x4 x5 (ix2 n k) - rowMax (fun k : Fin 40 => Cert.ReferenceIdeal.Read.val_main_v94 (F := Ideal) x0 x1 x2 x3 x4 x5 (ix2 n k)) := by
    intro k
    rw [Cert.ReferenceIdeal.Read.val_main_call3_v5_apply, Cert.ReferenceIdeal.Read.val_main_call3_v4_apply, Cert.ReferenceIdeal.Read.val_main_call3_v3_apply, e1 k, ref_rowMax, Ideal.subf_def]
  rw [Cert.ReferenceIdeal.Read.val_main_v95_apply, shifted j, Cert.ReferenceIdeal.Read.val_main_call3_v10_apply, Cert.ReferenceIdeal.Read.val_main_call3_v9_apply, Cert.ReferenceIdeal.Read.val_main_call3_v8_apply, e2,
    Cert.ReferenceIdeal.Read.val_main_call3_v7_apply, Cert.ReferenceIdeal.Read.val_main_call3_cst_1_apply]
  unfold shiftThenSubtract shiftedExpSum
  rw [Ideal.subf_def, Ideal.hostUnary_log_def, Ideal.ofBits_def, Ideal.ofBits_zero_f32, zero_add]
  have hsum : (∑ k : Fin 40, Cert.ReferenceIdeal.Read.val_main_call3_v6 (F := Ideal) x0 x1 x2 x3 x4 x5 (Cert.ReferenceIdeal.Read.idx_main_call3_v7 (ix1 n) k))
      = ∑ k : Fin 40, Ideal.exp (Cert.ReferenceIdeal.Read.val_main_v94 (F := Ideal) x0 x1 x2 x3 x4 x5 (ix2 n k) - rowMax (fun k : Fin 40 => Cert.ReferenceIdeal.Read.val_main_v94 (F := Ideal) x0 x1 x2 x3 x4 x5 (ix2 n k))) :=
    Finset.sum_congr rfl fun k _ => by
      rw [e3 k, Cert.ReferenceIdeal.Read.val_main_call3_v6_apply, shifted k, Ideal.hostUnary_exp_def]
  rw [hsum]

end Cert.ReferenceLogSoftmax

end
-- ==== Proof.LogSoftmaxBridge.lean ====
/-
  The last step: the kernel's log-softmax is the reference's.

  Both programs add the second bias to the second aggregation and normalise each row.  With `M` the row's maximum
  and `S` the sum of the exponentials of the row shifted by `M`, the kernel writes `x - (M + log S)`, the reference
  `(x - M) - log S`: its maximum is taken once more against minus infinity, which changes nothing, and its sum starts
  from zero.  The two forms agree because the row's entries are real numbers, so `M` is one.
-/
import proofs.«104228_j82592221102830_1_alg».proof.Proof.ReferenceReal
import proofs.«104228_j82592221102830_1_alg».proof.Proof.BiasLogSoftmax
import proofs.«104228_j82592221102830_1_alg».proof.Proof.ReferenceLogSoftmax
import Idealize.ShloMosaic.Lib.ValueLayout
import Idealize.ShloMosaic.PureOps.Ideal.Laws

noncomputable section

namespace Cert.LogSoftmaxBridge

open Idealize.ShloMosaic Idealize.ShloMosaic.ValueIdx Cert.RealValued Cert.RealArrays Cert.RowLogSoftmax
open scoped BigOperators

/-- The array the reference normalises is the second aggregation plus the second bias, entry by entry. -/
theorem biased_apply (x0 : Cert.ReferenceIdeal.S100000x128.Idx → EReal) (x1 : Cert.ReferenceIdeal.S2x1600000.Idx → BitVec 32) (x2 : Cert.ReferenceIdeal.S128x64.Idx → EReal)
    (x3 : Cert.ReferenceIdeal.S64.Idx → EReal) (x4 : Cert.ReferenceIdeal.S64x40.Idx → EReal) (x5 : Cert.ReferenceIdeal.S40.Idx → EReal) (hc : Cert.KernelIdeal.S40.ShapeCasts Cert.KernelIdeal.S1x40) (n : Fin 100000) (k : Fin 40) :
    Cert.ReferenceIdeal.Read.val_main_v91 (F := Ideal) x0 x1 x2 x3 x4 (ix2 n k) + shapeCast Cert.KernelIdeal.S1x40 x5 hc (ix2 (0 : Fin 1) k)
      = Cert.ReferenceIdeal.Read.val_main_v94 (F := Ideal) x0 x1 x2 x3 x4 x5 (ix2 n k) := by
  rw [Cert.ReferenceIdeal.Read.val_main_v94_apply, Cert.ReferenceIdeal.Read.val_main_v93_apply, Cert.ReferenceIdeal.Read.val_main_v92_apply, shapeCast_a_1a_apply]
  exact congrArg (fun z => _ + x5 z) (funext fun a => by match a with | ⟨0, _⟩ => rfl)

/-- Under real inputs the kernel's last stage, applied to the reference's second aggregation and the second bias as a
    row, is the reference's result. -/
theorem biasLogSoftmax_eq (x0 : Cert.ReferenceIdeal.S100000x128.Idx → EReal) (x1 : Cert.ReferenceIdeal.S2x1600000.Idx → BitVec 32) (x2 : Cert.ReferenceIdeal.S128x64.Idx → EReal)
    (x3 : Cert.ReferenceIdeal.S64.Idx → EReal) (x4 : Cert.ReferenceIdeal.S64x40.Idx → EReal) (x5 : Cert.ReferenceIdeal.S40.Idx → EReal) (h0 : AllReal x0) (h2 : AllReal x2) (h3 : AllReal x3) (h4 : AllReal x4) (h5 : AllReal x5)
    (hc : Cert.KernelIdeal.S40.ShapeCasts Cert.KernelIdeal.S1x40) :
    Cert.KernelIdeal.BiasLogSoftmax.biasLogSoftmax (Cert.ReferenceIdeal.Read.val_main_v91 (F := Ideal) x0 x1 x2 x3 x4) (shapeCast Cert.KernelIdeal.S1x40 x5 hc)
      = Cert.ReferenceIdeal.Read.val_main_v95 (F := Ideal) x0 x1 x2 x3 x4 x5 := by
  funext i
  obtain ⟨n, j, rfl⟩ : ∃ (n : Fin 100000) (j : Fin 40), i = ix2 n j := ⟨i 0, i 1, eq_ix2 i⟩
  rw [Cert.ReferenceLogSoftmax.ref_apply]
  show subtractLogSumExp (fun k : Fin 40 => Cert.ReferenceIdeal.Read.val_main_v91 (F := Ideal) x0 x1 x2 x3 x4 (ix2 n k) + shapeCast Cert.KernelIdeal.S1x40 x5 hc (ix2 (0 : Fin 1) k)) j = _
  rw [funext (biased_apply x0 x1 x2 x3 x4 x5 hc n)]
  exact subtractLogSumExp_eq_shiftThenSubtract (by decide) _ (fun k => Cert.ReferenceReal.real_v94 x0 x1 x2 x3 x4 x5 h0 h2 h3 h4 h5 (ix2 n k)) j

end Cert.LogSoftmaxBridge

end
-- ==== Proof.FiniteInputs.lean ====
/-
  What the precondition says, entry by entry.

  The precondition is the conjunction, over the five float arguments, of "every entry's absolute value is below plus
  infinity".  On the extended reals an entry with `|x| < +∞` is neither infinity, so it is a real number.  Unfolded
  here: from the precondition's word being one, every entry of every float argument is a real number.
-/
import proofs.«104228_j82592221102830_1_alg».proof.Pre_finite_inputs
import proofs.«104228_j82592221102830_1_alg».proof.Proof.LibRealValued
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Idealize.ShloMosaic Cert.RealValued Cert.Pre_finite_inputs

instance : Subsingleton S_.Idx := ⟨fun a b => funext fun d => d.elim0⟩

/-- The pattern of plus infinity denotes the top element. -/
theorem ofBits_posInf : Ideal.ofBits .f32 0x7F800000#32 = ⊤ := by simp [Ideal.ofBits, Ideal.ieee]

/-- An extended real whose absolute value compares below plus infinity is a real number. -/
theorem isReal_of_abs_lt (x : EReal) (h : Ideal.cmp .olt (max x (-x)) (Ideal.ofBits .f32 0x7F800000#32) = 1#1) : IsReal x := by
  rw [ofBits_posInf] at h
  unfold Ideal.cmp at h
  have hlt : max x (-x) < ⊤ := by
    by_contra hn
    simp [hn] at h
  refine isReal_of_ne (fun e => ?_) (fun e => ?_)
  · rw [e] at hlt; simp at hlt
  · rw [e] at hlt; simp at hlt

variable [Facts]

/-- Under the precondition every entry of every float argument is a real number. -/
theorem isReal_of_pre (a0 : FVec Ideal S100000x128 .f32) (a1 : IVec S2x1600000 32) (a2 : FVec Ideal S128x64 .f32)
    (a3 : FVec Ideal S64 .f32) (a4 : FVec Ideal S64x40 .f32) (a5 : FVec Ideal S40 .f32)
    (h : fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [fn, fn_part1] at h0
  obtain ⟨h0234, h5⟩ := IntOp.andi_eq_one.mp h0
  obtain ⟨h023, h4⟩ := IntOp.andi_eq_one.mp h0234
  obtain ⟨h02, h3⟩ := IntOp.andi_eq_one.mp h023
  obtain ⟨hx0, hx2⟩ := IntOp.andi_eq_one.mp h02
  exact ⟨fun i => isReal_of_abs_lt _ (Host.reduce_andi_all _ _ _ _ ValueIdx.ix0 hx0 i),
    fun i => isReal_of_abs_lt _ (Host.reduce_andi_all _ _ _ _ ValueIdx.ix0 hx2 i),
    fun i => isReal_of_abs_lt _ (Host.reduce_andi_all _ _ _ _ ValueIdx.ix0 h3 i),
    fun i => isReal_of_abs_lt _ (Host.reduce_andi_all _ _ _ _ ValueIdx.ix0 h4 i),
    fun i => isReal_of_abs_lt _ (Host.reduce_andi_all _ _ _ _ ValueIdx.ix0 h5 i)⟩

end Cert.FiniteInputs

end
-- ==== Proof.lean ====
/-
  The certificate: a two-layer graph convolution written as four pallas_calls against its jnp reference.

  Both programs compute, from the edge list, the lists of sources and destinations with self loops and the symmetric
  edge weights; a layer multiplies the features by a weight matrix, gathers the rows at the sources, weighs them, sums
  them into the destinations and adds a bias.  The first layer ends with a rectifier, the second with a row-wise
  log-softmax.  The kernel does the two matrix products, the bias with the rectifier and the bias with the log-softmax
  in pallas_calls over ten blocks of 10000 rows; everything else is the same host operations in both programs.

  The frames of the two kernel programs are the generated ones; the reference's frame is its run with the result
  dropped.  The idealisation rewrote nothing, so `preserves` is trivial.  For the value claim both runs end at ONE
  term, the reference's composed function of the six arguments: the kernel's buffers are read stage by stage as the
  reference's own stage functions (Proof/FirstLayer.lean, Proof/SecondLayer.lean), the products and the rectifier by
  whole-array equalities (Proof/StageFunctions.lean), and the log-softmax, which the kernel writes `x - (M + log S)`
  and the reference `(x - M) - log S`, by the one law that needs the inputs finite (Proof/LogSoftmaxBridge.lean over
  Proof/ReferenceReal.lean: every stage is real-valued when the float arguments are, whatever the edge list holds).
-/
import proofs.«104228_j82592221102830_1_alg».proof.Defs
import proofs.«104228_j82592221102830_1_alg».proof.Proof.Gen.Kernel
import proofs.«104228_j82592221102830_1_alg».proof.Proof.Gen.Kernel.Skeleton
import proofs.«104228_j82592221102830_1_alg».proof.Proof.Gen.Kernel.Launch
import proofs.«104228_j82592221102830_1_alg».proof.Proof.Gen.Kernel.Points
import proofs.«104228_j82592221102830_1_alg».proof.Proof.Gen.Kernel.Frame
import proofs.«104228_j82592221102830_1_alg».proof.Proof.Gen.KernelIdeal
import proofs.«104228_j82592221102830_1_alg».proof.Proof.Gen.KernelIdeal.Skeleton
import proofs.«104228_j82592221102830_1_alg».proof.Proof.Gen.KernelIdeal.Launch
import proofs.«104228_j82592221102830_1_alg».proof.Proof.Gen.KernelIdeal.Points
import proofs.«104228_j82592221102830_1_alg».proof.Proof.Gen.KernelIdeal.Frame
import proofs.«104228_j82592221102830_1_alg».proof.Proof.Gen.ReferenceIdeal
import proofs.«104228_j82592221102830_1_alg».proof.Proof.Gen.Pre_finite_inputs
import proofs.«104228_j82592221102830_1_alg».proof.Proof.ReferenceResult
import proofs.«104228_j82592221102830_1_alg».proof.Proof.ReferenceRead
import proofs.«104228_j82592221102830_1_alg».proof.Proof.KernelRun
import proofs.«104228_j82592221102830_1_alg».proof.Proof.SecondLayer
import proofs.«104228_j82592221102830_1_alg».proof.Proof.LogSoftmaxBridge
import proofs.«104228_j82592221102830_1_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Result.run m ρ)

/-- At the exact values, from memories agreeing on the arguments, both programs end with the reference's function of the
    arguments in their result. -/
theorem algebraic : Cert.algebraic_KernelIdeal_ReferenceIdeal := by
  intro m ρ m' ρ' hpre hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.ResultRun.run (F := Ideal) m ρ)
    obtain ⟨h0, h2, h3, h4, h5⟩ := Cert.FiniteInputs.isReal_of_pre _ _ _ _ _ _ (hpre c)
    rw [Cert.KernelIdeal.SecondLayer.at9_v61 m ρ c]
    exact Cert.LogSoftmaxBridge.biasLogSoftmax_eq _ _ _ _ _ _ h0 h2 h3 h4 h5 _
  · refine (θ_run Cert.ReferenceIdeal.defs _ _).mono (fun r h c => ⟨(h c).1.trans ?_, (h c).2⟩)
      (Cert.ReferenceIdeal.Result.run m' ρ')
    rw [(hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
